-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v98)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v92)) (v3 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v92) = v2 c
          ∧ r.2.mem ((c.tc : Thread Cert.KernelIdeal.nD Cert.KernelIdeal.τ).loc Cert.KernelIdeal.main_v43) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x128 : Shape := ⟨2, ![4096, 128]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x128 .f32 := Host.absf main_arg4
  let main_cst_6 : FVec F S_ .f32 := constant S_ .f32 0x7F800000#32
  let main_v20 : FVec F S4096x128 .f32 := broadcastInDim S4096x128 ![] bcast_S_S4096x128 main_cst_6
  let main_v21 : IVec S4096x128 1 := cmpf .olt main_v19 main_v20
  let main_c_7 : IVec S_ 1 := constantI S_ 1 1#1
  let main_v22 : IVec S_ 1 := (fun x v => Host.reduce IntOp.andi x v reducesTo_S4096x128_S_d0_1 h_S_) main_v21 main_c_7
  let main_v23 : IVec S_ 1 := andi main_v18 main_v22
  main_v23

def fn {F : FTy → Type} [FloatOps F] (main_arg0 : FVec F S4x2048x4096 .f32) (main_arg1 : FVec F S4096x128 .f32) (main_arg2 : FVec F S4096x4096 .f32) (main_arg3 : FVec F S4096 .f32) (main_arg4 : FVec F S4096x128 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S4x2048x4096 : Shape := ⟨3, ![4, 2048, 4096]⟩
abbrev S4096x128 : Shape := ⟨2, ![4096, 128]⟩
abbrev S4096x4096 : Shape := ⟨2, ![4096, 4096]⟩
abbrev S4096 : Shape := ⟨1, ![4096]⟩
abbrev S4x2048x128x32 : Shape := ⟨4, ![4, 2048, 128, 32]⟩
abbrev S_ : Shape := ⟨0, ![]⟩
abbrev S4x2048x128 : Shape := ⟨3, ![4, 2048, 128]⟩
abbrev S4x2048x128x1 : Shape := ⟨4, ![4, 2048, 128, 1]⟩
abbrev S4096x128x32 : Shape := ⟨3, ![4096, 128, 32]⟩
abbrev S4096x128x1 : Shape := ⟨3, ![4096, 128, 1]⟩
abbrev S8192x4096 : Shape := ⟨2, ![8192, 4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 145
  | .vmem => 8
  | .smem => 0
  | _ => 0

abbrev hbmTy0_0 (i : Nat) : BufTy := match i % 128 with
  | 0 => ⟨S4x2048x4096, .f32⟩
  | 1 => ⟨S4096x128, .f32⟩
  | 2 => ⟨S4096x4096, .f32⟩
  | 3 => ⟨S4096, .f32⟩
  | 4 => ⟨S4096x128, .f32⟩
  | 5 => ⟨S4x2048x128x32, .f32⟩
  | 6 => ⟨S4x2048x128x32, .f32⟩
  | 7 => ⟨S_, .f32⟩
  | 8 => ⟨S4x2048x128, .f32⟩
  | 9 => ⟨S4x2048x128x1, .f32⟩
  | 10 => ⟨S_, .f32⟩
  | 11 => ⟨S4x2048x128x1, .f32⟩
  | 12 => ⟨S4x2048x128x1, .i1⟩
  | 13 => ⟨S_, .f32⟩
  | 14 => ⟨S4x2048x128x1, .f32⟩
  | 15 => ⟨S4x2048x128x1, .f32⟩
  | 16 => ⟨S4x2048x128x1, .f32⟩
  | 17 => ⟨S_, .f32⟩
  | 18 => ⟨S_, .f32⟩
  | 19 => ⟨S4x2048x128x1, .f32⟩
  | 20 => ⟨S4x2048x128x1, .f32⟩
  | 21 => ⟨S4x2048x128x1, .f32⟩
  | 22 => ⟨S_, .f32⟩
  | 23 => ⟨S4x2048x128x1, .f32⟩
  | 24 => ⟨S4x2048x128x1, .f32⟩
  | 25 => ⟨S_, .f32⟩
  | 26 => ⟨S_, .f32⟩
  | 27 => ⟨S4x2048x128x1, .f32⟩
  | 28 => ⟨S4x2048x128x1, .f32⟩
  | 29 => ⟨S_, .f32⟩
  | 30 => ⟨S4x2048x128x1, .f32⟩
  | 31 => ⟨S4x2048x128x1, .f32⟩
  | 32 => ⟨S4x2048x128x1, .f32⟩
  | 33 => ⟨S4x2048x128x32, .f32⟩
  | 34 => ⟨S4x2048x128x32, .f32⟩
  | 35 => ⟨S4x2048x128x32, .f32⟩
  | 36 => ⟨S_, .f32⟩
  | 37 => ⟨S4x2048x128x32, .f32⟩
  | 38 => ⟨S4x2048x128x32, .f32⟩
  | 39 => ⟨S4x2048x128x32, .f32⟩
  | 40 => ⟨S_, .f32⟩
  | 41 => ⟨S_, .f32⟩
  | 42 => ⟨S4x2048x128x32, .f32⟩
  | 43 => ⟨S4x2048x128x32, .f32⟩
  | 44 => ⟨S4x2048x128x32, .f32⟩
  | 45 => ⟨S_, .f32⟩
  | 46 => ⟨S4x2048x128x32, .f32⟩
  | 47 => ⟨S4x2048x128x32, .f32⟩
  | 48 => ⟨S_, .f32⟩
  | 49 => ⟨S4x2048x128x32, .f32⟩
  | 50 => ⟨S4x2048x128x32, .f32⟩
  | 51 => ⟨S4x2048x128x32, .f32⟩
  | 52 => ⟨S4x2048x128x32, .f32⟩
  | 53 => ⟨S4x2048x128x32, .f32⟩
  | 54 => ⟨S4x2048x128x32, .f32⟩
  | 55 => ⟨S_, .f32⟩
  | 56 => ⟨S_, .f32⟩
  | 57 => ⟨S_, .f32⟩
  | 58 => ⟨S4x2048x128x32, .f32⟩
  | 59 => ⟨S4x2048x128x32, .f32⟩
  | 60 => ⟨S_, .f32⟩
  | 61 => ⟨S4x2048x128x32, .f32⟩
  | 62 => ⟨S4x2048x128x32, .f32⟩
  | 63 => ⟨S4x2048x128x32, .f32⟩
  | 64 => ⟨S4x2048x128x32, .f32⟩
  | 65 => ⟨S4x2048x128x32, .f32⟩
  | 66 => ⟨S4x2048x128x32, .f32⟩
  | 67 => ⟨S4x2048x4096, .f32⟩
  | 68 => ⟨S4x2048x128, .f32⟩
  | 69 => ⟨S4096x128, .f32⟩
  | 70 => ⟨S4096x128x32, .f32⟩
  | 71 => ⟨S4096x128x32, .f32⟩
  | 72 => ⟨S_, .f32⟩
  | 73 => ⟨S4096x128, .f32⟩
  | 74 => ⟨S4096x128x1, .f32⟩
  | 75 => ⟨S_, .f32⟩
  | 76 => ⟨S4096x128x1, .f32⟩
  | 77 => ⟨S4096x128x1, .i1⟩
  | 78 => ⟨S_, .f32⟩
  | 79 => ⟨S4096x128x1, .f32⟩
  | 80 => ⟨S4096x128x1, .f32⟩
  | 81 => ⟨S4096x128x1, .f32⟩
  | 82 => ⟨S_, .f32⟩
  | 83 => ⟨S_, .f32⟩
  | 84 => ⟨S4096x128x1, .f32⟩
  | 85 => ⟨S4096x128x1, .f32⟩
  | 86 => ⟨S4096x128x1, .f32⟩
  | 87 => ⟨S_, .f32⟩
  | 88 => ⟨S4096x128x1, .f32⟩
  | 89 => ⟨S4096x128x1, .f32⟩
  | 90 => ⟨S_, .f32⟩
  | 91 => ⟨S_, .f32⟩
  | 92 => ⟨S4096x128x1, .f32⟩
  | 93 => ⟨S4096x128x1, .f32⟩
  | 94 => ⟨S_, .f32⟩
  | 95 => ⟨S4096x128x1, .f32⟩
  | 96 => ⟨S4096x128x1, .f32⟩
  | 97 => ⟨S4096x128x1, .f32⟩
  | 98 => ⟨S4096x128x1, .f32⟩
  | 99 => ⟨S_, .f32⟩
  | 100 => ⟨S4096x128x1, .f32⟩
  | 101 => ⟨S4096x128x1, .f32⟩
  | 102 => ⟨S4096x128x1, .f32⟩
  | 103 => ⟨S4096x128x32, .f32⟩
  | 104 => ⟨S4096x128x32, .f32⟩
  | 105 => ⟨S4096x128x32, .f32⟩
  | 106 => ⟨S_, .f32⟩
  | 107 => ⟨S4096x128x32, .f32⟩
  | 108 => ⟨S4096x128x32, .f32⟩
  | 109 => ⟨S4096x128x32, .f32⟩
  | 110 => ⟨S_, .f32⟩
  | 111 => ⟨S_, .f32⟩
  | 112 => ⟨S4096x128x32, .f32⟩
  | 113 => ⟨S4096x128x32, .f32⟩
  | 114 => ⟨S4096x128x32, .f32⟩
  | 115 => ⟨S_, .f32⟩
  | 116 => ⟨S4096x128x32, .f32⟩
  | 117 => ⟨S4096x128x32, .f32⟩
  | 118 => ⟨S_, .f32⟩
  | 119 => ⟨S4096x128x32, .f32⟩
  | 120 => ⟨S4096x128x32, .f32⟩
  | 121 => ⟨S4096x128x32, .f32⟩
  | 122 => ⟨S4096x128x32, .f32⟩
  | 123 => ⟨S4096x128x32, .f32⟩
  | 124 => ⟨S4096x128x32, .f32⟩
  | 125 => ⟨S_, .f32⟩
  | 126 => ⟨S_, .f32⟩
  | 127 => ⟨S_, .f32⟩
  | _ => ⟨S4x2048x4096, .f32⟩

abbrev hbmTy0_1 (i : Nat) : BufTy := match i % 128 with
  | 0 => ⟨S4096x128x32, .f32⟩
  | 1 => ⟨S4096x128x32, .f32⟩
  | 2 => ⟨S_, .f32⟩
  | 3 => ⟨S4096x128x32, .f32⟩
  | 4 => ⟨S4096x128x32, .f32⟩
  | 5 => ⟨S4096x128x32, .f32⟩
  | 6 => ⟨S4096x128x32, .f32⟩
  | 7 => ⟨S4096x128x32, .f32⟩
  | 8 => ⟨S4096x128x32, .f32⟩
  | 9 => ⟨S4096x4096, .f32⟩
  | 10 => ⟨S4096x128, .f32⟩
  | 11 => ⟨S8192x4096, .f32⟩
  | 12 => ⟨S8192x4096, .bf16⟩
  | 13 => ⟨S4096x4096, .bf16⟩
  | 14 => ⟨S1x4096, .f32⟩
  | 15 => ⟨S8192x4096, .f32⟩
  | 16 => ⟨S4x2048x4096, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_cst_11 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_cst_13 : Ref sig .tc := ⟨.hbm, 75, rfl⟩
abbrev main_v49 : Ref sig .tc := ⟨.hbm, 76, rfl⟩
abbrev main_v50 : Ref sig .tc := ⟨.hbm, 77, rfl⟩
abbrev main_cst_14 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_15 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_16 : Ref sig .tc := ⟨.hbm, 87, rfl⟩
abbrev main_v58 : Ref sig .tc := ⟨.hbm, 88, rfl⟩
abbrev main_v59 : Ref sig .tc := ⟨.hbm, 89, rfl⟩
abbrev main_cst_17 : Ref sig .tc := ⟨.hbm, 90, rfl⟩
abbrev main_call3_v0 : Ref sig .tc := ⟨.hbm, 91, rfl⟩
abbrev main_call3_v1 : Ref sig .tc := ⟨.hbm, 92, rfl⟩
abbrev main_v60 : Ref sig .tc := ⟨.hbm, 93, rfl⟩
abbrev main_cst_18 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_19 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_20 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_21 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_22 : Ref sig .tc := ⟨.hbm, 115, rfl⟩
abbrev main_v78 : Ref sig .tc := ⟨.hbm, 116, rfl⟩
abbrev main_v79 : Ref sig .tc := ⟨.hbm, 117, rfl⟩
abbrev main_cst_23 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_24 : Ref sig .tc := ⟨.hbm, 125, rfl⟩
abbrev main_cst_25 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S4x2048x128x32 : S4x2048x4096.ShapeCasts S4x2048x128x32
  reducesTo_S4x2048x128x32_S4x2048x128_d3 : S4x2048x128x32.ReducesTo [3] S4x2048x128
  h_S_ : 0 < S_.numel
  bcast_S4x2048x128_S4x2048x128x1_0_1_2 : S4x2048x128.BroadcastsInDim S4x2048x128x1 (![0, 1, 2] : Fin 3 → Fin S4x2048x128x1.rank)
  bcast_S_S4x2048x128x1 : S_.BroadcastsInDim S4x2048x128x1 (![] : Fin 0 → Fin S4x2048x128x1.rank)
  bcast_S4x2048x128x1_S4x2048x128x32_0_1_2_3 : S4x2048x128x1.BroadcastsInDim S4x2048x128x32 (![0, 1, 2, 3] : Fin 4 → Fin S4x2048x128x32.rank)
  bcast_S_S4x2048x128x32 : S_.BroadcastsInDim S4x2048x128x32 (![] : Fin 0 → Fin S4x2048x128x32.rank)
  shapeCasts_S4x2048x128x32_S4x2048x4096 : S4x2048x128x32.ShapeCasts S4x2048x4096
  shapeCasts_S4x2048x128x1_S4x2048x128 : S4x2048x128x1.ShapeCasts S4x2048x128
  shapeCasts_S4096x4096_S4096x128x32 : S4096x4096.ShapeCasts S4096x128x32
  reducesTo_S4096x128x32_S4096x128_d2 : S4096x128x32.ReducesTo [2] S4096x128
  bcast_S4096x128_S4096x128x1_0_1 : S4096x128.BroadcastsInDim S4096x128x1 (![0, 1] : Fin 2 → Fin S4096x128x1.rank)
  bcast_S_S4096x128x1 : S_.BroadcastsInDim S4096x128x1 (![] : Fin 0 → Fin S4096x128x1.rank)
  bcast_S4096x128x1_S4096x128x32_0_1_2 : S4096x128x1.BroadcastsInDim S4096x128x32 (![0, 1, 2] : Fin 3 → Fin S4096x128x32.rank)
  bcast_S_S4096x128x32 : S_.BroadcastsInDim S4096x128x32 (![] : Fin 0 → Fin S4096x128x32.rank)
  shapeCasts_S4096x128x32_S4096x4096 : S4096x128x32.ShapeCasts S4096x4096
  shapeCasts_S4096x128x1_S4096x128 : S4096x128x1.ShapeCasts S4096x128
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v94) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v95) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v96) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v97) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x128 : Shape := ⟨2, ![4096, 128]⟩
abbrev S4096x4096 : Shape := ⟨2, ![4096, 4096]⟩
abbrev S4096 : Shape := ⟨1, ![4096]⟩
abbrev S4x2048x128x32 : Shape := ⟨4, ![4, 2048, 128, 32]⟩
abbrev S_ : Shape := ⟨0, ![]⟩
abbrev S4x2048x128 : Shape := ⟨3, ![4, 2048, 128]⟩
abbrev S4x2048x128x1 : Shape := ⟨4, ![4, 2048, 128, 1]⟩
abbrev S4096x128x32 : Shape := ⟨3, ![4096, 128, 32]⟩
abbrev S4096x128x1 : Shape := ⟨3, ![4096, 128, 1]⟩
abbrev S1x1x4096 : Shape := ⟨3, ![1, 1, 4096]⟩

abbrev nBuf : Space → Nat
  | .hbm => 147
  | .vmem => 0
  | .smem => 0
  | _ => 0

abbrev hbmTy0_0 (i : Nat) : BufTy := match i % 128 with
  | 0 => ⟨S4x2048x4096, .f32⟩
  | 1 => ⟨S4096x128, .f32⟩
  | 2 => ⟨S4096x4096, .f32⟩
  | 3 => ⟨S4096, .f32⟩
  | 4 => ⟨S4096x128, .f32⟩
  | 5 => ⟨S4x2048x128x32, .f32⟩
  | 6 => ⟨S4x2048x128x32, .f32⟩
  | 7 => ⟨S_, .f32⟩
  | 8 => ⟨S4x2048x128, .f32⟩
  | 9 => ⟨S4x2048x128x1, .f32⟩
  | 10 => ⟨S_, .f32⟩
  | 11 => ⟨S4x2048x128x1, .f32⟩
  | 12 => ⟨S4x2048x128x1, .i1⟩
  | 13 => ⟨S_, .f32⟩
  | 14 => ⟨S4x2048x128x1, .f32⟩
  | 15 => ⟨S4x2048x128x1, .f32⟩
  | 16 => ⟨S4x2048x128x1, .f32⟩
  | 17 => ⟨S_, .f32⟩
  | 18 => ⟨S_, .f32⟩
  | 19 => ⟨S4x2048x128x1, .f32⟩
  | 20 => ⟨S4x2048x128x1, .f32⟩
  | 21 => ⟨S4x2048x128x1, .f32⟩
  | 22 => ⟨S_, .f32⟩
  | 23 => ⟨S4x2048x128x1, .f32⟩
  | 24 => ⟨S4x2048x128x1, .f32⟩
  | 25 => ⟨S_, .f32⟩
  | 26 => ⟨S_, .f32⟩
  | 27 => ⟨S4x2048x128x1, .f32⟩
  | 28 => ⟨S4x2048x128x1, .f32⟩
  | 29 => ⟨S_, .f32⟩
  | 30 => ⟨S4x2048x128x1, .f32⟩
  | 31 => ⟨S4x2048x128x1, .f32⟩
  | 32 => ⟨S4x2048x128x1, .f32⟩
  | 33 => ⟨S4x2048x128x32, .f32⟩
  | 34 => ⟨S4x2048x128x32, .f32⟩
  | 35 => ⟨S4x2048x128x32, .f32⟩
  | 36 => ⟨S_, .f32⟩
  | 37 => ⟨S4x2048x128x32, .f32⟩
  | 38 => ⟨S4x2048x128x32, .f32⟩
  | 39 => ⟨S4x2048x128x32, .f32⟩
  | 40 => ⟨S_, .f32⟩
  | 41 => ⟨S_, .f32⟩
  | 42 => ⟨S4x2048x128x32, .f32⟩
  | 43 => ⟨S4x2048x128x32, .f32⟩
  | 44 => ⟨S4x2048x128x32, .f32⟩
  | 45 => ⟨S_, .f32⟩
  | 46 => ⟨S4x2048x128x32, .f32⟩
  | 47 => ⟨S4x2048x128x32, .f32⟩
  | 48 => ⟨S_, .f32⟩
  | 49 => ⟨S4x2048x128x32, .f32⟩
  | 50 => ⟨S4x2048x128x32, .f32⟩
  | 51 => ⟨S4x2048x128x32, .f32⟩
  | 52 => ⟨S4x2048x128x32, .f32⟩
  | 53 => ⟨S4x2048x128x32, .f32⟩
  | 54 => ⟨S4x2048x128x32, .f32⟩
  | 55 => ⟨S_, .f32⟩
  | 56 => ⟨S_, .f32⟩
  | 57 => ⟨S_, .f32⟩
  | 58 => ⟨S4x2048x128x32, .f32⟩
  | 59 => ⟨S4x2048x128x32, .f32⟩
  | 60 => ⟨S_, .f32⟩
  | 61 => ⟨S4x2048x128x32, .f32⟩
  | 62 => ⟨S4x2048x128x32, .f32⟩
  | 63 => ⟨S4x2048x128x32, .f32⟩
  | 64 => ⟨S4x2048x128x32, .f32⟩
  | 65 => ⟨S4x2048x128x32, .f32⟩
  | 66 => ⟨S4x2048x128x32, .f32⟩
  | 67 => ⟨S4x2048x128x32, .f32⟩
  | 68 => ⟨S4x2048x128x32, .f32⟩
  | 69 => ⟨S4x2048x4096, .f32⟩
  | 70 => ⟨S4x2048x128, .f32⟩
  | 71 => ⟨S4096x128, .f32⟩
  | 72 => ⟨S4096x128x32, .f32⟩
  | 73 => ⟨S4096x128x32, .f32⟩
  | 74 => ⟨S_, .f32⟩
  | 75 => ⟨S4096x128, .f32⟩
  | 76 => ⟨S4096x128x1, .f32⟩
  | 77 => ⟨S_, .f32⟩
  | 78 => ⟨S4096x128x1, .f32⟩
  | 79 => ⟨S4096x128x1, .i1⟩
  | 80 => ⟨S_, .f32⟩
  | 81 => ⟨S4096x128x1, .f32⟩
  | 82 => ⟨S4096x128x1, .f32⟩
  | 83 => ⟨S4096x128x1, .f32⟩
  | 84 => ⟨S_, .f32⟩
  | 85 => ⟨S_, .f32⟩
  | 86 => ⟨S4096x128x1, .f32⟩
  | 87 => ⟨S4096x128x1, .f32⟩
  | 88 => ⟨S4096x128x1, .f32⟩
  | 89 => ⟨S_, .f32⟩
  | 90 => ⟨S4096x128x1, .f32⟩
  | 91 => ⟨S4096x128x1, .f32⟩
  | 92 => ⟨S_, .f32⟩
  | 93 => ⟨S_, .f32⟩
  | 94 => ⟨S4096x128x1, .f32⟩
  | 95 => ⟨S4096x128x1, .f32⟩
  | 96 => ⟨S_, .f32⟩
  | 97 => ⟨S4096x128x1, .f32⟩
  | 98 => ⟨S4096x128x1, .f32⟩
  | 99 => ⟨S4096x128x1, .f32⟩
  | 100 => ⟨S4096x128x1, .f32⟩
  | 101 => ⟨S_, .f32⟩
  | 102 => ⟨S4096x128x1, .f32⟩
  | 103 => ⟨S4096x128x1, .f32⟩
  | 104 => ⟨S4096x128x1, .f32⟩
  | 105 => ⟨S4096x128x32, .f32⟩
  | 106 => ⟨S4096x128x32, .f32⟩
  | 107 => ⟨S4096x128x32, .f32⟩
  | 108 => ⟨S_, .f32⟩
  | 109 => ⟨S4096x128x32, .f32⟩
  | 110 => ⟨S4096x128x32, .f32⟩
  | 111 => ⟨S4096x128x32, .f32⟩
  | 112 => ⟨S_, .f32⟩
  | 113 => ⟨S_, .f32⟩
  | 114 => ⟨S4096x128x32, .f32⟩
  | 115 => ⟨S4096x128x32, .f32⟩
  | 116 => ⟨S4096x128x32, .f32⟩
  | 117 => ⟨S_, .f32⟩
  | 118 => ⟨S4096x128x32, .f32⟩
  | 119 => ⟨S4096x128x32, .f32⟩
  | 120 => ⟨S_, .f32⟩
  | 121 => ⟨S4096x128x32, .f32⟩
  | 122 => ⟨S4096x128x32, .f32⟩
  | 123 => ⟨S4096x128x32, .f32⟩
  | 124 => ⟨S4096x128x32, .f32⟩
  | 125 => ⟨S4096x128x32, .f32⟩
  | 126 => ⟨S4096x128x32, .f32⟩
  | 127 => ⟨S_, .f32⟩
  | _ => ⟨S4x2048x4096, .f32⟩

abbrev hbmTy0_1 (i : Nat) : BufTy := match i % 128 with
  | 0 => ⟨S_, .f32⟩
  | 1 => ⟨S_, .f32⟩
  | 2 => ⟨S4096x128x32, .f32⟩
  | 3 => ⟨S4096x128x32, .f32⟩
  | 4 => ⟨S_, .f32⟩
  | 5 => ⟨S4096x128x32, .f32⟩
  | 6 => ⟨S4096x128x32, .f32⟩
  | 7 => ⟨S4096x128x32, .f32⟩
  | 8 => ⟨S4096x128x32, .f32⟩
  | 9 => ⟨S4096x128x32, .f32⟩
  | 10 => ⟨S4096x128x32, .f32⟩
  | 11 => ⟨S4096x128x32, .f32⟩
  | 12 => ⟨S4096x128x32, .f32⟩
  | 13 => ⟨S4096x4096, .f32⟩
  | 14 => ⟨S4096x128, .f32⟩
  | 15 => ⟨S4x2048x4096, .f32⟩
  | 16 => ⟨S1x1x4096, .f32⟩
  | 17 => ⟨S4x2048x4096, .f32⟩
  | 18 => ⟨S4x2048x4096, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_cst_11 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_12 : Ref sig .tc := ⟨.hbm, 74, rfl⟩
abbrev main_v49 : Ref sig .tc := ⟨.hbm, 75, rfl⟩
abbrev main_v50 : Ref sig .tc := ⟨.hbm, 76, rfl⟩
abbrev main_cst_13 : Ref sig .tc := ⟨.hbm, 77, rfl⟩
abbrev main_v51 : Ref sig .tc := ⟨.hbm, 78, rfl⟩
abbrev main_v52 : Ref sig .tc := ⟨.hbm, 79, rfl⟩
abbrev main_cst_14 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_16 : Ref sig .tc := ⟨.hbm, 89, rfl⟩
abbrev main_v60 : Ref sig .tc := ⟨.hbm, 90, rfl⟩
abbrev main_v61 : Ref sig .tc := ⟨.hbm, 91, rfl⟩
abbrev main_cst_17 : Ref sig .tc := ⟨.hbm, 92, rfl⟩
abbrev main_call3_v0 : Ref sig .tc := ⟨.hbm, 93, rfl⟩
abbrev main_call3_v1 : Ref sig .tc := ⟨.hbm, 94, rfl⟩
abbrev main_v62 : Ref sig .tc := ⟨.hbm, 95, rfl⟩
abbrev main_cst_18 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_19 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_20 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_21 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_22 : Ref sig .tc := ⟨.hbm, 117, rfl⟩
abbrev main_v80 : Ref sig .tc := ⟨.hbm, 118, rfl⟩
abbrev main_v81 : Ref sig .tc := ⟨.hbm, 119, rfl⟩
abbrev main_cst_23 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_24 : Ref sig .tc := ⟨.hbm, 127, rfl⟩
abbrev main_cst_25 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩

abbrev nD : Nat := 1
abbrev τ : Topo := Topo.v7x

variable {F : FTy → Type} [FloatOps F]

class Facts₀ : Prop where
  shapeCasts_S4x2048x4096_S4x2048x128x32 : S4x2048x4096.ShapeCasts S4x2048x128x32
  reducesTo_S4x2048x128x32_S4x2048x128_d3 : S4x2048x128x32.ReducesTo [3] S4x2048x128
  h_S_ : 0 < S_.numel
  bcast_S4x2048x128_S4x2048x128x1_0_1_2 : S4x2048x128.BroadcastsInDim S4x2048x128x1 (![0, 1, 2] : Fin 3 → Fin S4x2048x128x1.rank)
  bcast_S_S4x2048x128x1 : S_.BroadcastsInDim S4x2048x128x1 (![] : Fin 0 → Fin S4x2048x128x1.rank)
  bcast_S4x2048x128x1_S4x2048x128x32_0_1_2_3 : S4x2048x128x1.BroadcastsInDim S4x2048x128x32 (![0, 1, 2, 3] : Fin 4 → Fin S4x2048x128x32.rank)
  bcast_S_S4x2048x128x32 : S_.BroadcastsInDim S4x2048x128x32 (![] : Fin 0 → Fin S4x2048x128x32.rank)
  shapeCasts_S4x2048x128x32_S4x2048x4096 : S4x2048x128x32.ShapeCasts S4x2048x4096
  shapeCasts_S4x2048x128x1_S4x2048x128 : S4x2048x128x1.ShapeCasts S4x2048x128
  shapeCasts_S4096x4096_S4096x128x32 : S4096x4096.ShapeCasts S4096x128x32
  reducesTo_S4096x128x32_S4096x128_d2 : S4096x128x32.ReducesTo [2] S4096x128
  bcast_S4096x128_S4096x128x1_0_1 : S4096x128.BroadcastsInDim S4096x128x1 (![0, 1] : Fin 2 → Fin S4096x128x1.rank)
  bcast_S_S4096x128x1 : S_.BroadcastsInDim S4096x128x1 (![] : Fin 0 → Fin S4096x128x1.rank)
  bcast_S4096x128x1_S4096x128x32_0_1_2 : S4096x128x1.BroadcastsInDim S4096x128x32 (![0, 1, 2] : Fin 3 → Fin S4096x128x32.rank)
  bcast_S_S4096x128x32 : S_.BroadcastsInDim S4096x128x32 (![] : Fin 0 → Fin S4096x128x32.rank)
  shapeCasts_S4096x128x32_S4096x4096 : S4096x128x32.ShapeCasts S4096x4096
  shapeCasts_S4096x128x1_S4096x128 : S4096x128x1.ShapeCasts S4096x128
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.FiniteInputs.lean ====
/-
  The precondition `finite_inputs`, read back at the extended reals. The predicate is, for each of the five
  arguments, `all (|a| < +∞)` — the absolute value `max x (-x)`, the comparison on the linear order against the value
  of the pattern 0x7F800000 (which is `⊤`), and a reduction by `and` over every axis from 1 — and the conjunction of
  the five one-bit results. When it answers 1, each conjunct is 1, so each comparison is 1 at every index, so
  `max x (-x) < ⊤` at every entry `x`: `x` is neither `⊤` (then `max x (-x) = ⊤`) nor `⊥` (then `-x = ⊤`), hence the
  coercion of a real. Stated here for arguments 0 and 2.
-/
import proofs.«169159_j88175678587513_1_alg».proof.Pre_finite_inputs
import Idealize.ShloMosaic.PureOps.Ideal
import Idealize.ShloMosaic.Lib.ValueIdx
import Idealize.ShloMosaic.Lib.ReduceAll

noncomputable section

namespace Cert.FiniteInputs

open Idealize.ShloMosaic

/-- The empty shape has a single index. -/
instance : Subsingleton Cert.Pre_finite_inputs.S_.Idx := ⟨fun a b => funext fun d => d.elim0⟩

/-- An extended real whose absolute value `max x (-x)` lies strictly below `+∞` (the value the pattern
    `0x7F800000` denotes) is neither infinity: it is the coercion of a real. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- `all (|a| < +∞)` over a whole array, read back: when the reduction by `and` of the comparisons
    `|a i| < +∞` over all axes is 1, every entry of `a` is a real. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ValueIdx.ix0 = 1#1) :
    ∀ i, ∃ r : ℝ, a i = (r : EReal) := fun i =>
  real_of_abs_lt_top (a i) (Host.reduce_andi_all _ _ hr hu _ e i)

/-- THE PRECONDITION DECODED: when the predicate `finite_inputs` answers 1, arguments 0 and 2 hold real numbers
    only. The predicate is the conjunction, over the five arguments, of `all (|a| < +∞)`; a conjunction of
    one-bit words that is 1 has every conjunct 1. -/
theorem real_of_pre [Cert.Pre_finite_inputs.Facts]
    (a0 : FVec Ideal Cert.Pre_finite_inputs.S4x2048x4096 .f32) (a1 : FVec Ideal Cert.Pre_finite_inputs.S4096x128 .f32)
    (a2 : FVec Ideal Cert.Pre_finite_inputs.S4096x4096 .f32) (a3 : FVec Ideal Cert.Pre_finite_inputs.S4096 .f32)
    (a4 : FVec Ideal Cert.Pre_finite_inputs.S4096x128 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) := by
  have e := congrFun h ValueIdx.ix0
  dsimp only [Cert.Pre_finite_inputs.fn, Cert.Pre_finite_inputs.fn_part1, andi] at e
  simp only [IntOp.andi_eq_one] at e
  obtain ⟨⟨⟨⟨h0, -⟩, h2⟩, -⟩, -⟩ := e
  exact ⟨real_of_all _ _ _ a0 h0, real_of_all _ _ _ a2 h2⟩

end Cert.FiniteInputs

end
-- ==== Proof.SteLaw.lean ====
/-
  The straight-through form of a rounding, multiplied back by its scale.

  A quantizer divides an entry a by a scale s, rounds the quotient y = a / s to some value r, and multiplies r
  back by s. Written for differentiation the rounding is y + (r - y) instead of r. Over the extended reals the two
  agree after the multiplication by s, for a REAL entry a and ANY scale s and ANY rounded value r:
  * if s = 0 both products are 0, whatever the other factor is;
  * if s ≠ 0 the quotient a / s is a real number (a times the inverse of s, and the inverse of an infinity is 0),
    and for a real y the sum y + (r - y) is r for every extended real r, the infinities included.
  Nothing is asked of r, so the rounding function itself is never opened.
-/
import Idealize.ShloMosaic.PureOps.Ideal
import Idealize.ShloMosaic.Lib.ValueIdx

noncomputable section

namespace Cert.SteLaw

open Idealize.ShloMosaic

/-- For a real y and any extended real r, y + (r - y) = r. -/
theorem real_add_sub_cancel (y : ℝ) (r : EReal) : (y : EReal) + (r - (y : EReal)) = r := by
  induction r using EReal.rec with
  | bot => simp
  | coe x => norm_cast; ring
  | top => simp

/-- A real divided by a nonzero extended real is a real. -/
theorem div_real (a : ℝ) (s : EReal) (hs : s ≠ 0) : ∃ y : ℝ, Ideal.div (a : EReal) s = (y : EReal) := by
  rw [Ideal.div, if_neg hs]
  induction s using EReal.rec with
  | bot => exact ⟨0, by simp⟩
  | coe x => exact ⟨a * x⁻¹, by rw [EReal.coe_mul, EReal.coe_inv]⟩
  | top => exact ⟨0, by simp⟩

/-- The law at one entry. -/
theorem ste_scalar (a : ℝ) (s r : EReal) :
    (Ideal.div (a : EReal) s + (r - Ideal.div (a : EReal) s)) * s = r * s := by
  by_cases hs : s = 0
  · subst hs; simp
  · obtain ⟨y, hy⟩ := div_real a s hs
    rw [hy, real_add_sub_cancel]

/-- The law for whole arrays of any shape: x real entry by entry, the scale array and the rounded array arbitrary. -/
theorem ste_array {sh : Shape} (X S R : FVec Ideal sh .f32) (hX : ∀ i, ∃ a : ℝ, X i = (a : EReal)) :
    mulf (addf (Host.divf X S) (subf R (Host.divf X S))) S = mulf R S := by
  funext i
  obtain ⟨a, ha⟩ := hX i
  simp only [mulf, addf, subf, Host.divf, Ideal.mulf_def, Ideal.addf_def, Ideal.subf_def, Ideal.hostDivf_def, ha]
  exact ste_scalar a (S i) (R i)

end Cert.SteLaw

end
-- ==== Proof.RefQuant.lean ====
/-
  The reference's two quantized arrays with the straight-through form removed.

  The reference rounds each scaled entry y = a / s as y + (r - y), where r is the rounded value of y, and
  multiplies by the scale s again. For an input array with real entries this product is r * s (the straight-through
  law, which asks nothing of the scale or of the rounded value), so the quantized activations and the quantized
  weights are the rounded arrays times their scales, regrouped to the inputs' shapes — the arrays the kernel's own
  preparation computes. The rounded-times-scale arrays are also given written out operation by operation, as
  functions of the arguments, which is the form in which a program's run states them.
-/
import proofs.«169159_j88175678587513_1_alg».proof.Proof.Gen.ReferenceIdeal.Read
import proofs.«169159_j88175678587513_1_alg».proof.Proof.SteLaw

set_option maxRecDepth 16384

noncomputable section

namespace Cert.ReferenceIdeal.Quant

open Idealize.ShloMosaic Cert.ReferenceIdeal Cert.ReferenceIdeal.Gen Cert.ReferenceIdeal.Read

variable [Cert.ReferenceIdeal.Facts]

section AnyInstance

variable {F : FTy → Type} [FloatOps F]

/-- The rounded activations times their group scales, group by group. -/
def actGroups (x0 : (⟨S4x2048x4096, .f32⟩ : BufTy).Contents (Elt F)) : (⟨S4x2048x128x32, .f32⟩ : BufTy).Contents (Elt F) :=
  mulf (val_main_v39 (F := F) x0) (val_main_v42 (F := F) x0)

/-- The same as a 4 x 2048 x 4096 array: the quantized activations without the straight-through form. -/
def actQ (x0 : (⟨S4x2048x4096, .f32⟩ : BufTy).Contents (Elt F)) : (⟨S4x2048x4096, .f32⟩ : BufTy).Contents (Elt F) :=
  shapeCast _ (actGroups (F := F) x0) shapeCasts_S4x2048x128x32_S4x2048x4096

/-- The rounded weights times their perturbed group scales, group by group. -/
def weightGroups (x1 : (⟨S4096x128, .f32⟩ : BufTy).Contents (Elt F)) (x2 : (⟨S4096x4096, .f32⟩ : BufTy).Contents (Elt F)) (x4 : (⟨S4096x128, .f32⟩ : BufTy).Contents (Elt F)) : (⟨S4096x128x32, .f32⟩ : BufTy).Contents (Elt F) :=
  mulf (val_main_v90 (F := F) x1 x2 x4) (val_main_v93 (F := F) x1 x2 x4)

/-- The same as a 4096 x 4096 array: the quantized weights without the straight-through form. -/
def weightQ (x1 : (⟨S4096x128, .f32⟩ : BufTy).Contents (Elt F)) (x2 : (⟨S4096x4096, .f32⟩ : BufTy).Contents (Elt F)) (x4 : (⟨S4096x128, .f32⟩ : BufTy).Contents (Elt F)) : (⟨S4096x4096, .f32⟩ : BufTy).Contents (Elt F) :=
  shapeCast _ (weightGroups (F := F) x1 x2 x4) shapeCasts_S4096x128x32_S4096x4096

set_option maxRecDepth 65536 in
/-- The rounded activations times their scales, written out operation by operation. -/
theorem actGroups_spelled (x0 : (⟨S4x2048x4096, .f32⟩ : BufTy).Contents (Elt F)) :
    mulf (mulf (Host.sign (Host.divf (shapeCast _ (x0) shapeCasts_S4x2048x4096_S4x2048x128x32) (broadcastInDim S4x2048x128x32 ![0, 1, 2, 3] bcast_S4x2048x128x1_S4x2048x128x32_0_1_2_3 (Host.exp (mulf (broadcastInDim S4x2048x128x1 ![] bcast_S_S4x2048x128x1 (constant S_ .f32 0x3F317218#32)) (select (cmpf .ogt (broadcastInDim S4x2048x128x1 ![0, 1, 2] bcast_S4x2048x128_S4x2048x128x1_0_1_2 (Host.reduce FloatOps.maximumf (Host.absf (shapeCast _ (x0) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x00000000#32))) (subf (Host.floor (Host.divf (Host.log (maximumf (broadcastInDim S4x2048x128x1 ![0, 1, 2] bcast_S4x2048x128_S4x2048x128x1_0_1_2 (Host.reduce FloatOps.maximumf (Host.absf (shapeCast _ (x0) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x0DA24260#32)))) (broadcastInDim S4x2048x128x1 ![] bcast_S_S4x2048x128x1 (Host.log (constant S_ .f32 0x40000000#32))))) (broadcastInDim S4x2048x128x1 ![] bcast_S_S4x2048x128x1 (constant S_ .f32 0x40000000#32))) (broadcastInDim S4x2048x128x1 ![] bcast_S_S4x2048x128x1 (id (constant S_ .f32 0x00000000#32))))))))) (minimumf (broadcastInDim S4x2048x128x32 ![] bcast_S_S4x2048x128x32 (id (constant S_ .f32 0x40C00000#32))) (maximumf (broadcastInDim S4x2048x128x32 ![] bcast_S_S4x2048x128x32 (id (constant S_ .f32 0x00000000#32))) (mulf (Host.roundeven (Host.divf (Host.absf (Host.divf (shapeCast _ (x0) shapeCasts_S4x2048x4096_S4x2048x128x32) (broadcastInDim S4x2048x128x32 ![0, 1, 2, 3] bcast_S4x2048x128x1_S4x2048x128x32_0_1_2_3 (Host.exp (mulf (broadcastInDim S4x2048x128x1 ![] bcast_S_S4x2048x128x1 (constant S_ .f32 0x3F317218#32)) (select (cmpf .ogt (broadcastInDim S4x2048x128x1 ![0, 1, 2] bcast_S4x2048x128_S4x2048x128x1_0_1_2 (Host.reduce FloatOps.maximumf (Host.absf (shapeCast _ (x0) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x00000000#32))) (subf (Host.floor (Host.divf (Host.log (maximumf (broadcastInDim S4x2048x128x1 ![0, 1, 2] bcast_S4x2048x128_S4x2048x128x1_0_1_2 (Host.reduce FloatOps.maximumf (Host.absf (shapeCast _ (x0) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x0DA24260#32)))) (broadcastInDim S4x2048x128x1 ![] bcast_S_S4x2048x128x1 (Host.log (constant S_ .f32 0x40000000#32))))) (broadcastInDim S4x2048x128x1 ![] bcast_S_S4x2048x128x1 (constant S_ .f32 0x40000000#32))) (broadcastInDim S4x2048x128x1 ![] bcast_S_S4x2048x128x1 (id (constant S_ .f32 0x00000000#32))))))))) (Host.exp (mulf (broadcastInDim S4x2048x128x32 ![] bcast_S_S4x2048x128x32 (constant S_ .f32 0x3F317218#32)) (subf (Host.floor (Host.divf (Host.log (maximumf (Host.absf (Host.divf (shapeCast _ (x0) shapeCasts_S4x2048x4096_S4x2048x128x32) (broadcastInDim S4x2048x128x32 ![0, 1, 2, 3] bcast_S4x2048x128x1_S4x2048x128x32_0_1_2_3 (Host.exp (mulf (broadcastInDim S4x2048x128x1 ![] bcast_S_S4x2048x128x1 (constant S_ .f32 0x3F317218#32)) (select (cmpf .ogt (broadcastInDim S4x2048x128x1 ![0, 1, 2] bcast_S4x2048x128_S4x2048x128x1_0_1_2 (Host.reduce FloatOps.maximumf (Host.absf (shapeCast _ (x0) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x00000000#32))) (subf (Host.floor (Host.divf (Host.log (maximumf (broadcastInDim S4x2048x128x1 ![0, 1, 2] bcast_S4x2048x128_S4x2048x128x1_0_1_2 (Host.reduce FloatOps.maximumf (Host.absf (shapeCast _ (x0) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x0DA24260#32)))) (broadcastInDim S4x2048x128x1 ![] bcast_S_S4x2048x128x1 (Host.log (constant S_ .f32 0x40000000#32))))) (broadcastInDim S4x2048x128x1 ![] bcast_S_S4x2048x128x1 (constant S_ .f32 0x40000000#32))) (broadcastInDim S4x2048x128x1 ![] bcast_S_S4x2048x128x1 (id (constant S_ .f32 0x00000000#32))))))))) (broadcastInDim S4x2048x128x32 ![] bcast_S_S4x2048x128x32 (constant S_ .f32 0x3F800000#32)))) (broadcastInDim S4x2048x128x32 ![] bcast_S_S4x2048x128x32 (Host.log (constant S_ .f32 0x40000000#32))))) (broadcastInDim S4x2048x128x32 ![] bcast_S_S4x2048x128x32 (constant S_ .f32 0x3F800000#32))))))) (Host.exp (mulf (broadcastInDim S4x2048x128x32 ![] bcast_S_S4x2048x128x32 (constant S_ .f32 0x3F317218#32)) (subf (Host.floor (Host.divf (Host.log (maximumf (Host.absf (Host.divf (shapeCast _ (x0) shapeCasts_S4x2048x4096_S4x2048x128x32) (broadcastInDim S4x2048x128x32 ![0, 1, 2, 3] bcast_S4x2048x128x1_S4x2048x128x32_0_1_2_3 (Host.exp (mulf (broadcastInDim S4x2048x128x1 ![] bcast_S_S4x2048x128x1 (constant S_ .f32 0x3F317218#32)) (select (cmpf .ogt (broadcastInDim S4x2048x128x1 ![0, 1, 2] bcast_S4x2048x128_S4x2048x128x1_0_1_2 (Host.reduce FloatOps.maximumf (Host.absf (shapeCast _ (x0) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x00000000#32))) (subf (Host.floor (Host.divf (Host.log (maximumf (broadcastInDim S4x2048x128x1 ![0, 1, 2] bcast_S4x2048x128_S4x2048x128x1_0_1_2 (Host.reduce FloatOps.maximumf (Host.absf (shapeCast _ (x0) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x0DA24260#32)))) (broadcastInDim S4x2048x128x1 ![] bcast_S_S4x2048x128x1 (Host.log (constant S_ .f32 0x40000000#32))))) (broadcastInDim S4x2048x128x1 ![] bcast_S_S4x2048x128x1 (constant S_ .f32 0x40000000#32))) (broadcastInDim S4x2048x128x1 ![] bcast_S_S4x2048x128x1 (id (constant S_ .f32 0x00000000#32))))))))) (broadcastInDim S4x2048x128x32 ![] bcast_S_S4x2048x128x32 (constant S_ .f32 0x3F800000#32)))) (broadcastInDim S4x2048x128x32 ![] bcast_S_S4x2048x128x32 (Host.log (constant S_ .f32 0x40000000#32))))) (broadcastInDim S4x2048x128x32 ![] bcast_S_S4x2048x128x32 (constant S_ .f32 0x3F800000#32))))))))) (broadcastInDim S4x2048x128x32 ![0, 1, 2, 3] bcast_S4x2048x128x1_S4x2048x128x32_0_1_2_3 (Host.exp (mulf (broadcastInDim S4x2048x128x1 ![] bcast_S_S4x2048x128x1 (constant S_ .f32 0x3F317218#32)) (select (cmpf .ogt (broadcastInDim S4x2048x128x1 ![0, 1, 2] bcast_S4x2048x128_S4x2048x128x1_0_1_2 (Host.reduce FloatOps.maximumf (Host.absf (shapeCast _ (x0) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x00000000#32))) (subf (Host.floor (Host.divf (Host.log (maximumf (broadcastInDim S4x2048x128x1 ![0, 1, 2] bcast_S4x2048x128_S4x2048x128x1_0_1_2 (Host.reduce FloatOps.maximumf (Host.absf (shapeCast _ (x0) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x0DA24260#32)))) (broadcastInDim S4x2048x128x1 ![] bcast_S_S4x2048x128x1 (Host.log (constant S_ .f32 0x40000000#32))))) (broadcastInDim S4x2048x128x1 ![] bcast_S_S4x2048x128x1 (constant S_ .f32 0x40000000#32))) (broadcastInDim S4x2048x128x1 ![] bcast_S_S4x2048x128x1 (id (constant S_ .f32 0x00000000#32)))))))
      = actGroups (F := F) x0 := rfl

set_option maxRecDepth 65536 in
/-- The rounded weights times their perturbed scales, written out operation by operation. -/
theorem weightGroups_spelled (x1 : (⟨S4096x128, .f32⟩ : BufTy).Contents (Elt F)) (x2 : (⟨S4096x4096, .f32⟩ : BufTy).Contents (Elt F)) (x4 : (⟨S4096x128, .f32⟩ : BufTy).Contents (Elt F)) :
    mulf (mulf (Host.sign (Host.divf (shapeCast _ (x2) shapeCasts_S4096x4096_S4096x128x32) (broadcastInDim S4096x128x32 ![0, 1, 2] bcast_S4096x128x1_S4096x128x32_0_1_2 (mulf (Host.exp (mulf (broadcastInDim S4096x128x1 ![] bcast_S_S4096x128x1 (constant S_ .f32 0x3F317218#32)) (select (cmpf .ogt (broadcastInDim S4096x128x1 ![0, 1] bcast_S4096x128_S4096x128x1_0_1 (Host.reduce FloatOps.maximumf (Host.absf (shapeCast _ (x2) shapeCasts_S4096x4096_S4096x128x32)) (constant S_ .f32 0xFF800000#32) reducesTo_S4096x128x32_S4096x128_d2 h_S_)) (broadcastInDim S4096x128x1 ![] bcast_S_S4096x128x1 (constant S_ .f32 0x00000000#32))) (subf (Host.floor (Host.divf (Host.log (maximumf (broadcastInDim S4096x128x1 ![0, 1] bcast_S4096x128_S4096x128x1_0_1 (Host.reduce FloatOps.maximumf (Host.absf (shapeCast _ (x2) shapeCasts_S4096x4096_S4096x128x32)) (constant S_ .f32 0xFF800000#32) reducesTo_S4096x128x32_S4096x128_d2 h_S_)) (broadcastInDim S4096x128x1 ![] bcast_S_S4096x128x1 (constant S_ .f32 0x0DA24260#32)))) (broadcastInDim S4096x128x1 ![] bcast_S_S4096x128x1 (Host.log (constant S_ .f32 0x40000000#32))))) (broadcastInDim S4096x128x1 ![] bcast_S_S4096x128x1 (constant S_ .f32 0x40000000#32))) (broadcastInDim S4096x128x1 ![] bcast_S_S4096x128x1 (id (constant S_ .f32 0x00000000#32)))))) (addf (broadcastInDim S4096x128x1 ![] bcast_S_S4096x128x1 (constant S_ .f32 0x3F800000#32)) (broadcastInDim S4096x128x1 ![0, 1] bcast_S4096x128_S4096x128x1_0_1 (addf (x4) (x1)))))))) (minimumf (broadcastInDim S4096x128x32 ![] bcast_S_S4096x128x32 (id (constant S_ .f32 0x40C00000#32))) (maximumf (broadcastInDim S4096x128x32 ![] bcast_S_S4096x128x32 (id (constant S_ .f32 0x00000000#32))) (mulf (Host.roundeven (Host.divf (Host.absf (Host.divf (shapeCast _ (x2) shapeCasts_S4096x4096_S4096x128x32) (broadcastInDim S4096x128x32 ![0, 1, 2] bcast_S4096x128x1_S4096x128x32_0_1_2 (mulf (Host.exp (mulf (broadcastInDim S4096x128x1 ![] bcast_S_S4096x128x1 (constant S_ .f32 0x3F317218#32)) (select (cmpf .ogt (broadcastInDim S4096x128x1 ![0, 1] bcast_S4096x128_S4096x128x1_0_1 (Host.reduce FloatOps.maximumf (Host.absf (shapeCast _ (x2) shapeCasts_S4096x4096_S4096x128x32)) (constant S_ .f32 0xFF800000#32) reducesTo_S4096x128x32_S4096x128_d2 h_S_)) (broadcastInDim S4096x128x1 ![] bcast_S_S4096x128x1 (constant S_ .f32 0x00000000#32))) (subf (Host.floor (Host.divf (Host.log (maximumf (broadcastInDim S4096x128x1 ![0, 1] bcast_S4096x128_S4096x128x1_0_1 (Host.reduce FloatOps.maximumf (Host.absf (shapeCast _ (x2) shapeCasts_S4096x4096_S4096x128x32)) (constant S_ .f32 0xFF800000#32) reducesTo_S4096x128x32_S4096x128_d2 h_S_)) (broadcastInDim S4096x128x1 ![] bcast_S_S4096x128x1 (constant S_ .f32 0x0DA24260#32)))) (broadcastInDim S4096x128x1 ![] bcast_S_S4096x128x1 (Host.log (constant S_ .f32 0x40000000#32))))) (broadcastInDim S4096x128x1 ![] bcast_S_S4096x128x1 (constant S_ .f32 0x40000000#32))) (broadcastInDim S4096x128x1 ![] bcast_S_S4096x128x1 (id (constant S_ .f32 0x00000000#32)))))) (addf (broadcastInDim S4096x128x1 ![] bcast_S_S4096x128x1 (constant S_ .f32 0x3F800000#32)) (broadcastInDim S4096x128x1 ![0, 1] bcast_S4096x128_S4096x128x1_0_1 (addf (x4) (x1)))))))) (Host.exp (mulf (broadcastInDim S4096x128x32 ![] bcast_S_S4096x128x32 (constant S_ .f32 0x3F317218#32)) (subf (Host.floor (Host.divf (Host.log (maximumf (Host.absf (Host.divf (shapeCast _ (x2) shapeCasts_S4096x4096_S4096x128x32) (broadcastInDim S4096x128x32 ![0, 1, 2] bcast_S4096x128x1_S4096x128x32_0_1_2 (mulf (Host.exp (mulf (broadcastInDim S4096x128x1 ![] bcast_S_S4096x128x1 (constant S_ .f32 0x3F317218#32)) (select (cmpf .ogt (broadcastInDim S4096x128x1 ![0, 1] bcast_S4096x128_S4096x128x1_0_1 (Host.reduce FloatOps.maximumf (Host.absf (shapeCast _ (x2) shapeCasts_S4096x4096_S4096x128x32)) (constant S_ .f32 0xFF800000#32) reducesTo_S4096x128x32_S4096x128_d2 h_S_)) (broadcastInDim S4096x128x1 ![] bcast_S_S4096x128x1 (constant S_ .f32 0x00000000#32))) (subf (Host.floor (Host.divf (Host.log (maximumf (broadcastInDim S4096x128x1 ![0, 1] bcast_S4096x128_S4096x128x1_0_1 (Host.reduce FloatOps.maximumf (Host.absf (shapeCast _ (x2) shapeCasts_S4096x4096_S4096x128x32)) (constant S_ .f32 0xFF800000#32) reducesTo_S4096x128x32_S4096x128_d2 h_S_)) (broadcastInDim S4096x128x1 ![] bcast_S_S4096x128x1 (constant S_ .f32 0x0DA24260#32)))) (broadcastInDim S4096x128x1 ![] bcast_S_S4096x128x1 (Host.log (constant S_ .f32 0x40000000#32))))) (broadcastInDim S4096x128x1 ![] bcast_S_S4096x128x1 (constant S_ .f32 0x40000000#32))) (broadcastInDim S4096x128x1 ![] bcast_S_S4096x128x1 (id (constant S_ .f32 0x00000000#32)))))) (addf (broadcastInDim S4096x128x1 ![] bcast_S_S4096x128x1 (constant S_ .f32 0x3F800000#32)) (broadcastInDim S4096x128x1 ![0, 1] bcast_S4096x128_S4096x128x1_0_1 (addf (x4) (x1)))))))) (broadcastInDim S4096x128x32 ![] bcast_S_S4096x128x32 (constant S_ .f32 0x3F800000#32)))) (broadcastInDim S4096x128x32 ![] bcast_S_S4096x128x32 (Host.log (constant S_ .f32 0x40000000#32))))) (broadcastInDim S4096x128x32 ![] bcast_S_S4096x128x32 (constant S_ .f32 0x3F800000#32))))))) (Host.exp (mulf (broadcastInDim S4096x128x32 ![] bcast_S_S4096x128x32 (constant S_ .f32 0x3F317218#32)) (subf (Host.floor (Host.divf (Host.log (maximumf (Host.absf (Host.divf (shapeCast _ (x2) shapeCasts_S4096x4096_S4096x128x32) (broadcastInDim S4096x128x32 ![0, 1, 2] bcast_S4096x128x1_S4096x128x32_0_1_2 (mulf (Host.exp (mulf (broadcastInDim S4096x128x1 ![] bcast_S_S4096x128x1 (constant S_ .f32 0x3F317218#32)) (select (cmpf .ogt (broadcastInDim S4096x128x1 ![0, 1] bcast_S4096x128_S4096x128x1_0_1 (Host.reduce FloatOps.maximumf (Host.absf (shapeCast _ (x2) shapeCasts_S4096x4096_S4096x128x32)) (constant S_ .f32 0xFF800000#32) reducesTo_S4096x128x32_S4096x128_d2 h_S_)) (broadcastInDim S4096x128x1 ![] bcast_S_S4096x128x1 (constant S_ .f32 0x00000000#32))) (subf (Host.floor (Host.divf (Host.log (maximumf (broadcastInDim S4096x128x1 ![0, 1] bcast_S4096x128_S4096x128x1_0_1 (Host.reduce FloatOps.maximumf (Host.absf (shapeCast _ (x2) shapeCasts_S4096x4096_S4096x128x32)) (constant S_ .f32 0xFF800000#32) reducesTo_S4096x128x32_S4096x128_d2 h_S_)) (broadcastInDim S4096x128x1 ![] bcast_S_S4096x128x1 (constant S_ .f32 0x0DA24260#32)))) (broadcastInDim S4096x128x1 ![] bcast_S_S4096x128x1 (Host.log (constant S_ .f32 0x40000000#32))))) (broadcastInDim S4096x128x1 ![] bcast_S_S4096x128x1 (constant S_ .f32 0x40000000#32))) (broadcastInDim S4096x128x1 ![] bcast_S_S4096x128x1 (id (constant S_ .f32 0x00000000#32)))))) (addf (broadcastInDim S4096x128x1 ![] bcast_S_S4096x128x1 (constant S_ .f32 0x3F800000#32)) (broadcastInDim S4096x128x1 ![0, 1] bcast_S4096x128_S4096x128x1_0_1 (addf (x4) (x1)))))))) (broadcastInDim S4096x128x32 ![] bcast_S_S4096x128x32 (constant S_ .f32 0x3F800000#32)))) (broadcastInDim S4096x128x32 ![] bcast_S_S4096x128x32 (Host.log (constant S_ .f32 0x40000000#32))))) (broadcastInDim S4096x128x32 ![] bcast_S_S4096x128x32 (constant S_ .f32 0x3F800000#32))))))))) (broadcastInDim S4096x128x32 ![0, 1, 2] bcast_S4096x128x1_S4096x128x32_0_1_2 (mulf (Host.exp (mulf (broadcastInDim S4096x128x1 ![] bcast_S_S4096x128x1 (constant S_ .f32 0x3F317218#32)) (select (cmpf .ogt (broadcastInDim S4096x128x1 ![0, 1] bcast_S4096x128_S4096x128x1_0_1 (Host.reduce FloatOps.maximumf (Host.absf (shapeCast _ (x2) shapeCasts_S4096x4096_S4096x128x32)) (constant S_ .f32 0xFF800000#32) reducesTo_S4096x128x32_S4096x128_d2 h_S_)) (broadcastInDim S4096x128x1 ![] bcast_S_S4096x128x1 (constant S_ .f32 0x00000000#32))) (subf (Host.floor (Host.divf (Host.log (maximumf (broadcastInDim S4096x128x1 ![0, 1] bcast_S4096x128_S4096x128x1_0_1 (Host.reduce FloatOps.maximumf (Host.absf (shapeCast _ (x2) shapeCasts_S4096x4096_S4096x128x32)) (constant S_ .f32 0xFF800000#32) reducesTo_S4096x128x32_S4096x128_d2 h_S_)) (broadcastInDim S4096x128x1 ![] bcast_S_S4096x128x1 (constant S_ .f32 0x0DA24260#32)))) (broadcastInDim S4096x128x1 ![] bcast_S_S4096x128x1 (Host.log (constant S_ .f32 0x40000000#32))))) (broadcastInDim S4096x128x1 ![] bcast_S_S4096x128x1 (constant S_ .f32 0x40000000#32))) (broadcastInDim S4096x128x1 ![] bcast_S_S4096x128x1 (id (constant S_ .f32 0x00000000#32)))))) (addf (broadcastInDim S4096x128x1 ![] bcast_S_S4096x128x1 (constant S_ .f32 0x3F800000#32)) (broadcastInDim S4096x128x1 ![0, 1] bcast_S4096x128_S4096x128x1_0_1 (addf (x4) (x1))))))
      = weightGroups (F := F) x1 x2 x4 := rfl

end AnyInstance

/-- The reference's quantized activations are the rounded quotients times the group scales. -/
theorem act_quant (x0 : (⟨S4x2048x4096, .f32⟩ : BufTy).Contents (Elt Ideal))
    (h0 : ∀ i, ∃ a : ℝ, x0 i = (a : EReal)) :
    val_main_v44 (F := Ideal) x0 = actQ (F := Ideal) x0 := by
  unfold val_main_v44 actQ
  refine congrArg (fun y => shapeCast _ y shapeCasts_S4x2048x128x32_S4x2048x4096) ?_
  unfold val_main_v43 val_main_v41 val_main_v40 val_main_v20 actGroups
  have e : val_main_v42 (F := Ideal) x0 = val_main_v19 (F := Ideal) x0 := rfl
  rw [e]
  exact Cert.SteLaw.ste_array (val_main_v0 (F := Ideal) x0) (val_main_v19 (F := Ideal) x0) (val_main_v39 (F := Ideal) x0)
    (fun i => by rw [val_main_v0_apply]; exact h0 _)

/-- The reference's quantized weights are the rounded quotients times the perturbed group scales. The scale may be
    zero or negative here (it carries the factor 1 + eps); the law does not care. -/
theorem weight_quant (x1 : (⟨S4096x128, .f32⟩ : BufTy).Contents (Elt Ideal))
    (x2 : (⟨S4096x4096, .f32⟩ : BufTy).Contents (Elt Ideal)) (x4 : (⟨S4096x128, .f32⟩ : BufTy).Contents (Elt Ideal))
    (h2 : ∀ i, ∃ a : ℝ, x2 i = (a : EReal)) :
    val_main_v95 (F := Ideal) x1 x2 x4 = weightQ (F := Ideal) x1 x2 x4 := by
  unfold val_main_v95 weightQ
  refine congrArg (fun y => shapeCast _ y shapeCasts_S4096x128x32_S4096x4096) ?_
  unfold val_main_v94 val_main_v92 val_main_v91 val_main_v71 weightGroups
  have e : val_main_v93 (F := Ideal) x1 x2 x4 = val_main_v70 (F := Ideal) x1 x2 x4 := rfl
  rw [e]
  exact Cert.SteLaw.ste_array (val_main_v47 (F := Ideal) x2) (val_main_v70 (F := Ideal) x1 x2 x4)
    (val_main_v90 (F := Ideal) x1 x2 x4) (fun i => by rw [val_main_v47_apply]; exact h2 _)

end Cert.ReferenceIdeal.Quant

end
-- ==== Proof.Operands.lean ====
/-
  The three operands the kernel hands to its product, as functions of the arrays they are made from.

  The quantized activations, a 4 x 2048 x 4096 array, are regrouped to 8192 rows of length 4096 (row 2048 b + s is
  the row (b, s)) and changed to a 16-bit format; the quantized weights, 4096 x 4096, are changed to the same
  format; the bias vector of length 4096 is viewed as a 1 x 4096 row. On exact values a change of format does nothing.
-/
import proofs.«169159_j88175678587513_1_alg».proof.KernelIdeal

noncomputable section

namespace Cert.KernelIdeal.Operands

open Idealize.ShloMosaic Cert.KernelIdeal Cert.KernelIdeal.Facts₀

variable [Cert.KernelIdeal.Facts] {F : FTy → Type} [FloatOps F]

/-- The left operand: the quantized activations as 8192 rows. -/
def lhsOf (xq : (⟨S4x2048x4096, .f32⟩ : BufTy).Contents (Elt F)) : (⟨S8192x4096, .bf16⟩ : BufTy).Contents (Elt F) :=
  truncf .bf16 (shapeCast S8192x4096 xq shapeCasts_S4x2048x4096_S8192x4096) bitsLt_bf16_f32

/-- The right operand: the quantized weights. -/
def rhsOf (wq : (⟨S4096x4096, .f32⟩ : BufTy).Contents (Elt F)) : (⟨S4096x4096, .bf16⟩ : BufTy).Contents (Elt F) :=
  truncf .bf16 wq bitsLt_bf16_f32

/-- The bias as a row. -/
def biasRow (b : (⟨S4096, .f32⟩ : BufTy).Contents (Elt F)) : (⟨S1x4096, .f32⟩ : BufTy).Contents (Elt F) :=
  shapeCast S1x4096 b shapeCasts_S4096_S1x4096

end Cert.KernelIdeal.Operands

end
-- ==== Proof.KernelPrefix.lean ====
/-
  The arrays the region finds, and the three results computed before it.

  Before the region the program prepares, from the arguments, exactly the reference's quantization stages except
  that each rounding is used directly (no straight-through form): the left operand is the rounded activations times
  their group scales, regrouped to 8192 x 4096 (and changed to a 16-bit format, which is the identity on exact
  values); the right operand is the rounded weights times their perturbed scales, 4096 x 4096; the bias is viewed as
  a 1 x 4096 row. The three other results — the sum of the two perturbation arrays and the two arrays of group
  exponents — are the reference's own stages. Each is first read off the program as the composition of its
  operations applied to the arguments, then recognized as the named stage: the two programs spell these stages with
  the same operations in the same order, so nothing of the quantization is reasoned about here.
-/
import proofs.«169159_j88175678587513_1_alg».proof.Proof.Gen.KernelIdeal.Frame
import proofs.«169159_j88175678587513_1_alg».proof.Proof.Gen.ReferenceIdeal.Read
import proofs.«169159_j88175678587513_1_alg».proof.Proof.RefQuant
import proofs.«169159_j88175678587513_1_alg».proof.Proof.Operands
import Idealize.ShloMosaic.Lib.StableHlo.Run

set_option maxRecDepth 16384

noncomputable section

namespace Cert.KernelIdeal.Prefix

open Idealize.ShloMosaic Idealize.ShloMosaic.TcCoe Idealize.SL.Sem Idealize.ShloMosaic.StableHlo
open Cert.KernelIdeal Cert.KernelIdeal.Gen

variable [Cert.KernelIdeal.Facts] [Cert.ReferenceIdeal.Facts]
variable {F : FTy → Type} [FloatOps F]
variable (m : (ℓ : Loc nD τ sig) → Buf (Elt F) ℓ)

/-! ## Each buffer as the composition of its operations -/

set_option maxHeartbeats 60000000 in
set_option maxRecDepth 65536 in
/-- The left operand, operation by operation. -/
theorem lhs_composed (c : Dev nD) :
    V m c main_v94 = truncf .bf16 (shapeCast _ (shapeCast _ (mulf (mulf (Host.sign (Host.divf (shapeCast _ (m ((c.tc : Thread nD τ).loc main_arg0)) shapeCasts_S4x2048x4096_S4x2048x128x32) (broadcastInDim S4x2048x128x32 ![0, 1, 2, 3] bcast_S4x2048x128x1_S4x2048x128x32_0_1_2_3 (Host.exp (mulf (broadcastInDim S4x2048x128x1 ![] bcast_S_S4x2048x128x1 (constant S_ .f32 0x3F317218#32)) (select (cmpf .ogt (broadcastInDim S4x2048x128x1 ![0, 1, 2] bcast_S4x2048x128_S4x2048x128x1_0_1_2 (Host.reduce FloatOps.maximumf (Host.absf (shapeCast _ (m ((c.tc : Thread nD τ).loc main_arg0)) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x00000000#32))) (subf (Host.floor (Host.divf (Host.log (maximumf (broadcastInDim S4x2048x128x1 ![0, 1, 2] bcast_S4x2048x128_S4x2048x128x1_0_1_2 (Host.reduce FloatOps.maximumf (Host.absf (shapeCast _ (m ((c.tc : Thread nD τ).loc main_arg0)) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x0DA24260#32)))) (broadcastInDim S4x2048x128x1 ![] bcast_S_S4x2048x128x1 (Host.log (constant S_ .f32 0x40000000#32))))) (broadcastInDim S4x2048x128x1 ![] bcast_S_S4x2048x128x1 (constant S_ .f32 0x40000000#32))) (broadcastInDim S4x2048x128x1 ![] bcast_S_S4x2048x128x1 (id (constant S_ .f32 0x00000000#32))))))))) (minimumf (broadcastInDim S4x2048x128x32 ![] bcast_S_S4x2048x128x32 (id (constant S_ .f32 0x40C00000#32))) (maximumf (broadcastInDim S4x2048x128x32 ![] bcast_S_S4x2048x128x32 (id (constant S_ .f32 0x00000000#32))) (mulf (Host.roundeven (Host.divf (Host.absf (Host.divf (shapeCast _ (m ((c.tc : Thread nD τ).loc main_arg0)) shapeCasts_S4x2048x4096_S4x2048x128x32) (broadcastInDim S4x2048x128x32 ![0, 1, 2, 3] bcast_S4x2048x128x1_S4x2048x128x32_0_1_2_3 (Host.exp (mulf (broadcastInDim S4x2048x128x1 ![] bcast_S_S4x2048x128x1 (constant S_ .f32 0x3F317218#32)) (select (cmpf .ogt (broadcastInDim S4x2048x128x1 ![0, 1, 2] bcast_S4x2048x128_S4x2048x128x1_0_1_2 (Host.reduce FloatOps.maximumf (Host.absf (shapeCast _ (m ((c.tc : Thread nD τ).loc main_arg0)) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x00000000#32))) (subf (Host.floor (Host.divf (Host.log (maximumf (broadcastInDim S4x2048x128x1 ![0, 1, 2] bcast_S4x2048x128_S4x2048x128x1_0_1_2 (Host.reduce FloatOps.maximumf (Host.absf (shapeCast _ (m ((c.tc : Thread nD τ).loc main_arg0)) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x0DA24260#32)))) (broadcastInDim S4x2048x128x1 ![] bcast_S_S4x2048x128x1 (Host.log (constant S_ .f32 0x40000000#32))))) (broadcastInDim S4x2048x128x1 ![] bcast_S_S4x2048x128x1 (constant S_ .f32 0x40000000#32))) (broadcastInDim S4x2048x128x1 ![] bcast_S_S4x2048x128x1 (id (constant S_ .f32 0x00000000#32))))))))) (Host.exp (mulf (broadcastInDim S4x2048x128x32 ![] bcast_S_S4x2048x128x32 (constant S_ .f32 0x3F317218#32)) (subf (Host.floor (Host.divf (Host.log (maximumf (Host.absf (Host.divf (shapeCast _ (m ((c.tc : Thread nD τ).loc main_arg0)) shapeCasts_S4x2048x4096_S4x2048x128x32) (broadcastInDim S4x2048x128x32 ![0, 1, 2, 3] bcast_S4x2048x128x1_S4x2048x128x32_0_1_2_3 (Host.exp (mulf (broadcastInDim S4x2048x128x1 ![] bcast_S_S4x2048x128x1 (constant S_ .f32 0x3F317218#32)) (select (cmpf .ogt (broadcastInDim S4x2048x128x1 ![0, 1, 2] bcast_S4x2048x128_S4x2048x128x1_0_1_2 (Host.reduce FloatOps.maximumf (Host.absf (shapeCast _ (m ((c.tc : Thread nD τ).loc main_arg0)) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x00000000#32))) (subf (Host.floor (Host.divf (Host.log (maximumf (broadcastInDim S4x2048x128x1 ![0, 1, 2] bcast_S4x2048x128_S4x2048x128x1_0_1_2 (Host.reduce FloatOps.maximumf (Host.absf (shapeCast _ (m ((c.tc : Thread nD τ).loc main_arg0)) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x0DA24260#32)))) (broadcastInDim S4x2048x128x1 ![] bcast_S_S4x2048x128x1 (Host.log (constant S_ .f32 0x40000000#32))))) (broadcastInDim S4x2048x128x1 ![] bcast_S_S4x2048x128x1 (constant S_ .f32 0x40000000#32))) (broadcastInDim S4x2048x128x1 ![] bcast_S_S4x2048x128x1 (id (constant S_ .f32 0x00000000#32))))))))) (broadcastInDim S4x2048x128x32 ![] bcast_S_S4x2048x128x32 (constant S_ .f32 0x3F800000#32)))) (broadcastInDim S4x2048x128x32 ![] bcast_S_S4x2048x128x32 (Host.log (constant S_ .f32 0x40000000#32))))) (broadcastInDim S4x2048x128x32 ![] bcast_S_S4x2048x128x32 (constant S_ .f32 0x3F800000#32))))))) (Host.exp (mulf (broadcastInDim S4x2048x128x32 ![] bcast_S_S4x2048x128x32 (constant S_ .f32 0x3F317218#32)) (subf (Host.floor (Host.divf (Host.log (maximumf (Host.absf (Host.divf (shapeCast _ (m ((c.tc : Thread nD τ).loc main_arg0)) shapeCasts_S4x2048x4096_S4x2048x128x32) (broadcastInDim S4x2048x128x32 ![0, 1, 2, 3] bcast_S4x2048x128x1_S4x2048x128x32_0_1_2_3 (Host.exp (mulf (broadcastInDim S4x2048x128x1 ![] bcast_S_S4x2048x128x1 (constant S_ .f32 0x3F317218#32)) (select (cmpf .ogt (broadcastInDim S4x2048x128x1 ![0, 1, 2] bcast_S4x2048x128_S4x2048x128x1_0_1_2 (Host.reduce FloatOps.maximumf (Host.absf (shapeCast _ (m ((c.tc : Thread nD τ).loc main_arg0)) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x00000000#32))) (subf (Host.floor (Host.divf (Host.log (maximumf (broadcastInDim S4x2048x128x1 ![0, 1, 2] bcast_S4x2048x128_S4x2048x128x1_0_1_2 (Host.reduce FloatOps.maximumf (Host.absf (shapeCast _ (m ((c.tc : Thread nD τ).loc main_arg0)) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x0DA24260#32)))) (broadcastInDim S4x2048x128x1 ![] bcast_S_S4x2048x128x1 (Host.log (constant S_ .f32 0x40000000#32))))) (broadcastInDim S4x2048x128x1 ![] bcast_S_S4x2048x128x1 (constant S_ .f32 0x40000000#32))) (broadcastInDim S4x2048x128x1 ![] bcast_S_S4x2048x128x1 (id (constant S_ .f32 0x00000000#32))))))))) (broadcastInDim S4x2048x128x32 ![] bcast_S_S4x2048x128x32 (constant S_ .f32 0x3F800000#32)))) (broadcastInDim S4x2048x128x32 ![] bcast_S_S4x2048x128x32 (Host.log (constant S_ .f32 0x40000000#32))))) (broadcastInDim S4x2048x128x32 ![] bcast_S_S4x2048x128x32 (constant S_ .f32 0x3F800000#32))))))))) (broadcastInDim S4x2048x128x32 ![0, 1, 2, 3] bcast_S4x2048x128x1_S4x2048x128x32_0_1_2_3 (Host.exp (mulf (broadcastInDim S4x2048x128x1 ![] bcast_S_S4x2048x128x1 (constant S_ .f32 0x3F317218#32)) (select (cmpf .ogt (broadcastInDim S4x2048x128x1 ![0, 1, 2] bcast_S4x2048x128_S4x2048x128x1_0_1_2 (Host.reduce FloatOps.maximumf (Host.absf (shapeCast _ (m ((c.tc : Thread nD τ).loc main_arg0)) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x00000000#32))) (subf (Host.floor (Host.divf (Host.log (maximumf (broadcastInDim S4x2048x128x1 ![0, 1, 2] bcast_S4x2048x128_S4x2048x128x1_0_1_2 (Host.reduce FloatOps.maximumf (Host.absf (shapeCast _ (m ((c.tc : Thread nD τ).loc main_arg0)) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x0DA24260#32)))) (broadcastInDim S4x2048x128x1 ![] bcast_S_S4x2048x128x1 (Host.log (constant S_ .f32 0x40000000#32))))) (broadcastInDim S4x2048x128x1 ![] bcast_S_S4x2048x128x1 (constant S_ .f32 0x40000000#32))) (broadcastInDim S4x2048x128x1 ![] bcast_S_S4x2048x128x1 (id (constant S_ .f32 0x00000000#32)))))))) shapeCasts_S4x2048x128x32_S4x2048x4096) shapeCasts_S4x2048x4096_S8192x4096) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 60000000 in
set_option maxRecDepth 65536 in
/-- The right operand, operation by operation. -/
theorem rhs_composed (c : Dev nD) :
    V m c main_v95 = truncf .bf16 (shapeCast _ (mulf (mulf (Host.sign (Host.divf (shapeCast _ (m ((c.tc : Thread nD τ).loc main_arg2)) shapeCasts_S4096x4096_S4096x128x32) (broadcastInDim S4096x128x32 ![0, 1, 2] bcast_S4096x128x1_S4096x128x32_0_1_2 (mulf (Host.exp (mulf (broadcastInDim S4096x128x1 ![] bcast_S_S4096x128x1 (constant S_ .f32 0x3F317218#32)) (select (cmpf .ogt (broadcastInDim S4096x128x1 ![0, 1] bcast_S4096x128_S4096x128x1_0_1 (Host.reduce FloatOps.maximumf (Host.absf (shapeCast _ (m ((c.tc : Thread nD τ).loc main_arg2)) shapeCasts_S4096x4096_S4096x128x32)) (constant S_ .f32 0xFF800000#32) reducesTo_S4096x128x32_S4096x128_d2 h_S_)) (broadcastInDim S4096x128x1 ![] bcast_S_S4096x128x1 (constant S_ .f32 0x00000000#32))) (subf (Host.floor (Host.divf (Host.log (maximumf (broadcastInDim S4096x128x1 ![0, 1] bcast_S4096x128_S4096x128x1_0_1 (Host.reduce FloatOps.maximumf (Host.absf (shapeCast _ (m ((c.tc : Thread nD τ).loc main_arg2)) shapeCasts_S4096x4096_S4096x128x32)) (constant S_ .f32 0xFF800000#32) reducesTo_S4096x128x32_S4096x128_d2 h_S_)) (broadcastInDim S4096x128x1 ![] bcast_S_S4096x128x1 (constant S_ .f32 0x0DA24260#32)))) (broadcastInDim S4096x128x1 ![] bcast_S_S4096x128x1 (Host.log (constant S_ .f32 0x40000000#32))))) (broadcastInDim S4096x128x1 ![] bcast_S_S4096x128x1 (constant S_ .f32 0x40000000#32))) (broadcastInDim S4096x128x1 ![] bcast_S_S4096x128x1 (id (constant S_ .f32 0x00000000#32)))))) (addf (broadcastInDim S4096x128x1 ![] bcast_S_S4096x128x1 (constant S_ .f32 0x3F800000#32)) (broadcastInDim S4096x128x1 ![0, 1] bcast_S4096x128_S4096x128x1_0_1 (addf (m ((c.tc : Thread nD τ).loc main_arg4)) (m ((c.tc : Thread nD τ).loc main_arg1))))))))) (minimumf (broadcastInDim S4096x128x32 ![] bcast_S_S4096x128x32 (id (constant S_ .f32 0x40C00000#32))) (maximumf (broadcastInDim S4096x128x32 ![] bcast_S_S4096x128x32 (id (constant S_ .f32 0x00000000#32))) (mulf (Host.roundeven (Host.divf (Host.absf (Host.divf (shapeCast _ (m ((c.tc : Thread nD τ).loc main_arg2)) shapeCasts_S4096x4096_S4096x128x32) (broadcastInDim S4096x128x32 ![0, 1, 2] bcast_S4096x128x1_S4096x128x32_0_1_2 (mulf (Host.exp (mulf (broadcastInDim S4096x128x1 ![] bcast_S_S4096x128x1 (constant S_ .f32 0x3F317218#32)) (select (cmpf .ogt (broadcastInDim S4096x128x1 ![0, 1] bcast_S4096x128_S4096x128x1_0_1 (Host.reduce FloatOps.maximumf (Host.absf (shapeCast _ (m ((c.tc : Thread nD τ).loc main_arg2)) shapeCasts_S4096x4096_S4096x128x32)) (constant S_ .f32 0xFF800000#32) reducesTo_S4096x128x32_S4096x128_d2 h_S_)) (broadcastInDim S4096x128x1 ![] bcast_S_S4096x128x1 (constant S_ .f32 0x00000000#32))) (subf (Host.floor (Host.divf (Host.log (maximumf (broadcastInDim S4096x128x1 ![0, 1] bcast_S4096x128_S4096x128x1_0_1 (Host.reduce FloatOps.maximumf (Host.absf (shapeCast _ (m ((c.tc : Thread nD τ).loc main_arg2)) shapeCasts_S4096x4096_S4096x128x32)) (constant S_ .f32 0xFF800000#32) reducesTo_S4096x128x32_S4096x128_d2 h_S_)) (broadcastInDim S4096x128x1 ![] bcast_S_S4096x128x1 (constant S_ .f32 0x0DA24260#32)))) (broadcastInDim S4096x128x1 ![] bcast_S_S4096x128x1 (Host.log (constant S_ .f32 0x40000000#32))))) (broadcastInDim S4096x128x1 ![] bcast_S_S4096x128x1 (constant S_ .f32 0x40000000#32))) (broadcastInDim S4096x128x1 ![] bcast_S_S4096x128x1 (id (constant S_ .f32 0x00000000#32)))))) (addf (broadcastInDim S4096x128x1 ![] bcast_S_S4096x128x1 (constant S_ .f32 0x3F800000#32)) (broadcastInDim S4096x128x1 ![0, 1] bcast_S4096x128_S4096x128x1_0_1 (addf (m ((c.tc : Thread nD τ).loc main_arg4)) (m ((c.tc : Thread nD τ).loc main_arg1))))))))) (Host.exp (mulf (broadcastInDim S4096x128x32 ![] bcast_S_S4096x128x32 (constant S_ .f32 0x3F317218#32)) (subf (Host.floor (Host.divf (Host.log (maximumf (Host.absf (Host.divf (shapeCast _ (m ((c.tc : Thread nD τ).loc main_arg2)) shapeCasts_S4096x4096_S4096x128x32) (broadcastInDim S4096x128x32 ![0, 1, 2] bcast_S4096x128x1_S4096x128x32_0_1_2 (mulf (Host.exp (mulf (broadcastInDim S4096x128x1 ![] bcast_S_S4096x128x1 (constant S_ .f32 0x3F317218#32)) (select (cmpf .ogt (broadcastInDim S4096x128x1 ![0, 1] bcast_S4096x128_S4096x128x1_0_1 (Host.reduce FloatOps.maximumf (Host.absf (shapeCast _ (m ((c.tc : Thread nD τ).loc main_arg2)) shapeCasts_S4096x4096_S4096x128x32)) (constant S_ .f32 0xFF800000#32) reducesTo_S4096x128x32_S4096x128_d2 h_S_)) (broadcastInDim S4096x128x1 ![] bcast_S_S4096x128x1 (constant S_ .f32 0x00000000#32))) (subf (Host.floor (Host.divf (Host.log (maximumf (broadcastInDim S4096x128x1 ![0, 1] bcast_S4096x128_S4096x128x1_0_1 (Host.reduce FloatOps.maximumf (Host.absf (shapeCast _ (m ((c.tc : Thread nD τ).loc main_arg2)) shapeCasts_S4096x4096_S4096x128x32)) (constant S_ .f32 0xFF800000#32) reducesTo_S4096x128x32_S4096x128_d2 h_S_)) (broadcastInDim S4096x128x1 ![] bcast_S_S4096x128x1 (constant S_ .f32 0x0DA24260#32)))) (broadcastInDim S4096x128x1 ![] bcast_S_S4096x128x1 (Host.log (constant S_ .f32 0x40000000#32))))) (broadcastInDim S4096x128x1 ![] bcast_S_S4096x128x1 (constant S_ .f32 0x40000000#32))) (broadcastInDim S4096x128x1 ![] bcast_S_S4096x128x1 (id (constant S_ .f32 0x00000000#32)))))) (addf (broadcastInDim S4096x128x1 ![] bcast_S_S4096x128x1 (constant S_ .f32 0x3F800000#32)) (broadcastInDim S4096x128x1 ![0, 1] bcast_S4096x128_S4096x128x1_0_1 (addf (m ((c.tc : Thread nD τ).loc main_arg4)) (m ((c.tc : Thread nD τ).loc main_arg1))))))))) (broadcastInDim S4096x128x32 ![] bcast_S_S4096x128x32 (constant S_ .f32 0x3F800000#32)))) (broadcastInDim S4096x128x32 ![] bcast_S_S4096x128x32 (Host.log (constant S_ .f32 0x40000000#32))))) (broadcastInDim S4096x128x32 ![] bcast_S_S4096x128x32 (constant S_ .f32 0x3F800000#32))))))) (Host.exp (mulf (broadcastInDim S4096x128x32 ![] bcast_S_S4096x128x32 (constant S_ .f32 0x3F317218#32)) (subf (Host.floor (Host.divf (Host.log (maximumf (Host.absf (Host.divf (shapeCast _ (m ((c.tc : Thread nD τ).loc main_arg2)) shapeCasts_S4096x4096_S4096x128x32) (broadcastInDim S4096x128x32 ![0, 1, 2] bcast_S4096x128x1_S4096x128x32_0_1_2 (mulf (Host.exp (mulf (broadcastInDim S4096x128x1 ![] bcast_S_S4096x128x1 (constant S_ .f32 0x3F317218#32)) (select (cmpf .ogt (broadcastInDim S4096x128x1 ![0, 1] bcast_S4096x128_S4096x128x1_0_1 (Host.reduce FloatOps.maximumf (Host.absf (shapeCast _ (m ((c.tc : Thread nD τ).loc main_arg2)) shapeCasts_S4096x4096_S4096x128x32)) (constant S_ .f32 0xFF800000#32) reducesTo_S4096x128x32_S4096x128_d2 h_S_)) (broadcastInDim S4096x128x1 ![] bcast_S_S4096x128x1 (constant S_ .f32 0x00000000#32))) (subf (Host.floor (Host.divf (Host.log (maximumf (broadcastInDim S4096x128x1 ![0, 1] bcast_S4096x128_S4096x128x1_0_1 (Host.reduce FloatOps.maximumf (Host.absf (shapeCast _ (m ((c.tc : Thread nD τ).loc main_arg2)) shapeCasts_S4096x4096_S4096x128x32)) (constant S_ .f32 0xFF800000#32) reducesTo_S4096x128x32_S4096x128_d2 h_S_)) (broadcastInDim S4096x128x1 ![] bcast_S_S4096x128x1 (constant S_ .f32 0x0DA24260#32)))) (broadcastInDim S4096x128x1 ![] bcast_S_S4096x128x1 (Host.log (constant S_ .f32 0x40000000#32))))) (broadcastInDim S4096x128x1 ![] bcast_S_S4096x128x1 (constant S_ .f32 0x40000000#32))) (broadcastInDim S4096x128x1 ![] bcast_S_S4096x128x1 (id (constant S_ .f32 0x00000000#32)))))) (addf (broadcastInDim S4096x128x1 ![] bcast_S_S4096x128x1 (constant S_ .f32 0x3F800000#32)) (broadcastInDim S4096x128x1 ![0, 1] bcast_S4096x128_S4096x128x1_0_1 (addf (m ((c.tc : Thread nD τ).loc main_arg4)) (m ((c.tc : Thread nD τ).loc main_arg1))))))))) (broadcastInDim S4096x128x32 ![] bcast_S_S4096x128x32 (constant S_ .f32 0x3F800000#32)))) (broadcastInDim S4096x128x32 ![] bcast_S_S4096x128x32 (Host.log (constant S_ .f32 0x40000000#32))))) (broadcastInDim S4096x128x32 ![] bcast_S_S4096x128x32 (constant S_ .f32 0x3F800000#32))))))))) (broadcastInDim S4096x128x32 ![0, 1, 2] bcast_S4096x128x1_S4096x128x32_0_1_2 (mulf (Host.exp (mulf (broadcastInDim S4096x128x1 ![] bcast_S_S4096x128x1 (constant S_ .f32 0x3F317218#32)) (select (cmpf .ogt (broadcastInDim S4096x128x1 ![0, 1] bcast_S4096x128_S4096x128x1_0_1 (Host.reduce FloatOps.maximumf (Host.absf (shapeCast _ (m ((c.tc : Thread nD τ).loc main_arg2)) shapeCasts_S4096x4096_S4096x128x32)) (constant S_ .f32 0xFF800000#32) reducesTo_S4096x128x32_S4096x128_d2 h_S_)) (broadcastInDim S4096x128x1 ![] bcast_S_S4096x128x1 (constant S_ .f32 0x00000000#32))) (subf (Host.floor (Host.divf (Host.log (maximumf (broadcastInDim S4096x128x1 ![0, 1] bcast_S4096x128_S4096x128x1_0_1 (Host.reduce FloatOps.maximumf (Host.absf (shapeCast _ (m ((c.tc : Thread nD τ).loc main_arg2)) shapeCasts_S4096x4096_S4096x128x32)) (constant S_ .f32 0xFF800000#32) reducesTo_S4096x128x32_S4096x128_d2 h_S_)) (broadcastInDim S4096x128x1 ![] bcast_S_S4096x128x1 (constant S_ .f32 0x0DA24260#32)))) (broadcastInDim S4096x128x1 ![] bcast_S_S4096x128x1 (Host.log (constant S_ .f32 0x40000000#32))))) (broadcastInDim S4096x128x1 ![] bcast_S_S4096x128x1 (constant S_ .f32 0x40000000#32))) (broadcastInDim S4096x128x1 ![] bcast_S_S4096x128x1 (id (constant S_ .f32 0x00000000#32)))))) (addf (broadcastInDim S4096x128x1 ![] bcast_S_S4096x128x1 (constant S_ .f32 0x3F800000#32)) (broadcastInDim S4096x128x1 ![0, 1] bcast_S4096x128_S4096x128x1_0_1 (addf (m ((c.tc : Thread nD τ).loc main_arg4)) (m ((c.tc : Thread nD τ).loc main_arg1)))))))) shapeCasts_S4096x128x32_S4096x4096) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 60000000 in
set_option maxRecDepth 65536 in
/-- The bias row. -/
theorem bias_composed (c : Dev nD) :
    V m c main_v96 = shapeCast _ (m ((c.tc : Thread nD τ).loc main_arg3)) shapeCasts_S4096_S1x4096 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 60000000 in
set_option maxRecDepth 65536 in
/-- The sum of the two perturbation arrays. -/
theorem eps_composed (c : Dev nD) :
    V m c main_v44 = addf (m ((c.tc : Thread nD τ).loc main_arg4)) (m ((c.tc : Thread nD τ).loc main_arg1)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 60000000 in
set_option maxRecDepth 65536 in
/-- The weights' group exponents, operation by operation. -/
theorem weight_exps_composed (c : Dev nD) :
    V m c main_v92 = shapeCast _ (select (cmpf .ogt (broadcastInDim S4096x128x1 ![0, 1] bcast_S4096x128_S4096x128x1_0_1 (Host.reduce FloatOps.maximumf (Host.absf (shapeCast _ (m ((c.tc : Thread nD τ).loc main_arg2)) shapeCasts_S4096x4096_S4096x128x32)) (constant S_ .f32 0xFF800000#32) reducesTo_S4096x128x32_S4096x128_d2 h_S_)) (broadcastInDim S4096x128x1 ![] bcast_S_S4096x128x1 (constant S_ .f32 0x00000000#32))) (subf (Host.floor (Host.divf (Host.log (maximumf (broadcastInDim S4096x128x1 ![0, 1] bcast_S4096x128_S4096x128x1_0_1 (Host.reduce FloatOps.maximumf (Host.absf (shapeCast _ (m ((c.tc : Thread nD τ).loc main_arg2)) shapeCasts_S4096x4096_S4096x128x32)) (constant S_ .f32 0xFF800000#32) reducesTo_S4096x128x32_S4096x128_d2 h_S_)) (broadcastInDim S4096x128x1 ![] bcast_S_S4096x128x1 (constant S_ .f32 0x0DA24260#32)))) (broadcastInDim S4096x128x1 ![] bcast_S_S4096x128x1 (Host.log (constant S_ .f32 0x40000000#32))))) (broadcastInDim S4096x128x1 ![] bcast_S_S4096x128x1 (constant S_ .f32 0x40000000#32))) (broadcastInDim S4096x128x1 ![] bcast_S_S4096x128x1 (id (constant S_ .f32 0x00000000#32)))) shapeCasts_S4096x128x1_S4096x128 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 60000000 in
set_option maxRecDepth 65536 in
/-- The activations' group exponents, operation by operation. -/
theorem act_exps_composed (c : Dev nD) :
    V m c main_v43 = shapeCast _ (select (cmpf .ogt (broadcastInDim S4x2048x128x1 ![0, 1, 2] bcast_S4x2048x128_S4x2048x128x1_0_1_2 (Host.reduce FloatOps.maximumf (Host.absf (shapeCast _ (m ((c.tc : Thread nD τ).loc main_arg0)) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x00000000#32))) (subf (Host.floor (Host.divf (Host.log (maximumf (broadcastInDim S4x2048x128x1 ![0, 1, 2] bcast_S4x2048x128_S4x2048x128x1_0_1_2 (Host.reduce FloatOps.maximumf (Host.absf (shapeCast _ (m ((c.tc : Thread nD τ).loc main_arg0)) shapeCasts_S4x2048x4096_S4x2048x128x32)) (constant S_ .f32 0xFF800000#32) reducesTo_S4x2048x128x32_S4x2048x128_d3 h_S_)) (broadcastInDim S4x2048x128x1 ![] bcast_S_S4x2048x128x1 (constant S_ .f32 0x0DA24260#32)))) (broadcastInDim S4x2048x128x1 ![] bcast_S_S4x2048x128x1 (Host.log (constant S_ .f32 0x40000000#32))))) (broadcastInDim S4x2048x128x1 ![] bcast_S_S4x2048x128x1 (constant S_ .f32 0x40000000#32))) (broadcastInDim S4x2048x128x1 ![] bcast_S_S4x2048x128x1 (id (constant S_ .f32 0x00000000#32)))) shapeCasts_S4x2048x128x1_S4x2048x128 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

/-! ## The same, as the named stages -/

/-- The left operand is the quantized activations (no straight-through form) as 8192 rows. -/
theorem lhs_array (c : Dev nD) :
    V m c main_v94 = Cert.KernelIdeal.Operands.lhsOf (Cert.ReferenceIdeal.Quant.actQ (F := F) (m ((c.tc : Thread nD τ).loc main_arg0))) :=
  (lhs_composed m c).trans
    (congrArg (fun y => Cert.KernelIdeal.Operands.lhsOf (F := F)
        (shapeCast _ y Cert.ReferenceIdeal.Gen.shapeCasts_S4x2048x128x32_S4x2048x4096))
      (Cert.ReferenceIdeal.Quant.actGroups_spelled (F := F) (m ((c.tc : Thread nD τ).loc main_arg0))))

/-- The right operand is the quantized weights (no straight-through form). -/
theorem rhs_array (c : Dev nD) :
    V m c main_v95 = Cert.KernelIdeal.Operands.rhsOf (Cert.ReferenceIdeal.Quant.weightQ (F := F) (m ((c.tc : Thread nD τ).loc main_arg1)) (m ((c.tc : Thread nD τ).loc main_arg2)) (m ((c.tc : Thread nD τ).loc main_arg4))) :=
  (rhs_composed m c).trans
    (congrArg (fun y => Cert.KernelIdeal.Operands.rhsOf (F := F)
        (shapeCast _ y Cert.ReferenceIdeal.Gen.shapeCasts_S4096x128x32_S4096x4096))
      (Cert.ReferenceIdeal.Quant.weightGroups_spelled (F := F) (m ((c.tc : Thread nD τ).loc main_arg1)) (m ((c.tc : Thread nD τ).loc main_arg2)) (m ((c.tc : Thread nD τ).loc main_arg4))))

/-- The bias row. -/
theorem bias_array (c : Dev nD) : V m c main_v96 = Cert.KernelIdeal.Operands.biasRow (F := F) (m ((c.tc : Thread nD τ).loc main_arg3)) :=
  bias_composed m c

/-- The sum of the two perturbation arrays is the reference's. -/
theorem eps_result (c : Dev nD) : V m c main_v44 = Cert.ReferenceIdeal.Read.val_main_v46 (F := F) (m ((c.tc : Thread nD τ).loc main_arg1)) (m ((c.tc : Thread nD τ).loc main_arg4)) :=
  eps_composed m c

/-- The weights' group exponents are the reference's. -/
theorem weight_exps_result (c : Dev nD) : V m c main_v92 = Cert.ReferenceIdeal.Read.val_main_v96 (F := F) (m ((c.tc : Thread nD τ).loc main_arg2)) :=
  (weight_exps_composed m c).trans (Cert.ReferenceIdeal.Read.val_main_v96_eq (F := F) (m ((c.tc : Thread nD τ).loc main_arg2)))

/-- The activations' group exponents are the reference's. -/
theorem act_exps_result (c : Dev nD) : V m c main_v43 = Cert.ReferenceIdeal.Read.val_main_v45 (F := F) (m ((c.tc : Thread nD τ).loc main_arg0)) :=
  (act_exps_composed m c).trans (Cert.ReferenceIdeal.Read.val_main_v45_eq (F := F) (m ((c.tc : Thread nD τ).loc main_arg0)))

end Cert.KernelIdeal.Prefix

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.KernelTile.lean ====
/-
  One tile of the product, entry by entry.

  The body computes, for a 1024 x 4096 block x of the left operand, a 512 x 4096 block w of the right operand and a
  1 x 512 piece b of the bias row, the 1024 x 512 tile whose entry (p, q) is the sum over k of x(p, k) * w(q, k),
  plus b(0, q): rows of x against rows of w (a product with the transpose), accumulated from zero, the bias row
  repeated down the tile. At the exact instance the product is the plain finite sum, in any order.
-/
import proofs.«169159_j88175678587513_1_alg».proof.Proof.Gen.KernelIdeal.Skeleton
import proofs.«169159_j88175678587513_1_alg».proof.Proof.LibMatmul
import Idealize.ShloMosaic.Lib.Pipeline.Value
import Idealize.ShloMosaic.Lib.ValueIdx

noncomputable section

namespace Cert.KernelIdeal.Tile

open Idealize.ShloMosaic Idealize.ShloMosaic.ValueIdx Cert.KernelIdeal Cert.KernelIdeal.Gen

variable [Cert.KernelIdeal.Facts]

/-- Entry (p, q) of the tile the body stores. -/
theorem tile_apply (x : Vec Ideal S1024x4096 .bf16) (w : Vec Ideal S512x4096 .bf16) (b : Vec Ideal S1x512 .f32)
    (p : Fin 1024) (q : Fin 512) :
    k0_pay1 (F := Ideal) x w b (ix2 p q)
      = (∑ k : Fin 4096, x (ix2 p k) * w (ix2 q k)) + b (ix2 (0 : Fin 1) q) := by
  unfold k0_pay1
  rw [shapeCast_self, shapeCast_self, shapeCast_self, addf_apply]
  congr 1
  · exact Cert.MatmulAt.matmul_zero_nt_apply dot_S1024x4096_S512x4096_S1024x512_1_1_0_0_n_n_wf none x w p q
  · exact broadcastTo_apply b broadcasts_S1x512_S1024x512 (ix2 p q) (ix2 (0 : Fin 1) q)
      (fun a => by match a with | ⟨0, _⟩ => rfl | ⟨1, _⟩ => rfl)

/-- The same at any index of the tile, by its two coordinates. -/
theorem tile_apply_idx (x : Vec Ideal S1024x4096 .bf16) (w : Vec Ideal S512x4096 .bf16) (b : Vec Ideal S1x512 .f32)
    (j : S1024x512.Idx) :
    k0_pay1 (F := Ideal) x w b j
      = (∑ k : Fin 4096, x (ix2 (j 0) k) * w (ix2 (j 1) k)) + b (ix2 (0 : Fin 1) (j 1)) :=
  (congrArg (k0_pay1 (F := Ideal) x w b) (eq_ix2 j)).trans (tile_apply x w b (j 0) (j 1))

end Cert.KernelIdeal.Tile

end
-- ==== Proof.LinearSpec.lean ====
/-
  The layer both programs compute, as one function.

  For a left operand X with M rows of length K, a right operand W with N rows of length K and a bias row B of
  length N, the M x N array whose entry (p, q) is the sum over k of X(p, k) * W(q, k), plus B(q): every row of X
  against every row of W (the product with the transpose of W), the bias added to each row of the result.
-/
import Idealize.ShloMosaic.PureOps.Ideal
import Idealize.ShloMosaic.Lib.ValueIdx

noncomputable section

namespace Cert.LinearSpec

open Idealize.ShloMosaic Idealize.ShloMosaic.ValueIdx

/-- Rows against rows, plus the bias row. -/
def rowsByRows {M K N : ℕ} {φ₁ φ₂ : FTy} (X : FVec Ideal ⟨2, ![M, K]⟩ φ₁) (W : FVec Ideal ⟨2, ![N, K]⟩ φ₂)
    (B : FVec Ideal ⟨2, ![1, N]⟩ .f32) : FVec Ideal ⟨2, ![M, N]⟩ .f32 :=
  fun i => (∑ k : Fin K, X (ix2 (i 0) k) * W (ix2 (i 1) k)) + B (ix2 (0 : Fin 1) (i 1))

/-- An entry, by its two coordinates. -/
theorem rowsByRows_apply {M K N : ℕ} {φ₁ φ₂ : FTy} (X : FVec Ideal ⟨2, ![M, K]⟩ φ₁) (W : FVec Ideal ⟨2, ![N, K]⟩ φ₂)
    (B : FVec Ideal ⟨2, ![1, N]⟩ .f32) (p : Fin M) (q : Fin N) :
    rowsByRows X W B (ix2 p q) = (∑ k : Fin K, X (ix2 p k) * W (ix2 q k)) + B (ix2 (0 : Fin 1) q) := rfl

/-- An entry at any index, by its two coordinates. -/
theorem rowsByRows_idx {M K N : ℕ} {φ₁ φ₂ : FTy} (X : FVec Ideal ⟨2, ![M, K]⟩ φ₁) (W : FVec Ideal ⟨2, ![N, K]⟩ φ₂)
    (B : FVec Ideal ⟨2, ![1, N]⟩ .f32) (i : (⟨2, ![M, N]⟩ : Shape).Idx) :
    rowsByRows X W B i = (∑ k : Fin K, X (ix2 (i 0) k) * W (ix2 (i 1) k)) + B (ix2 (0 : Fin 1) (i 1)) := rfl

end Cert.LinearSpec

end
-- ==== Proof.KernelProduct.lean ====
/-
  From the tiles to the whole product.

  The grid has 8 x 8 points; point (i, j) reads rows 1024 i .. 1024 i + 1023 of the left operand (all 4096 columns),
  rows 512 j .. 512 j + 511 of the right operand (all 4096 columns) and columns 512 j .. 512 j + 511 of the bias row,
  and writes back the 1024 x 512 tile at block (i, j) of the 8192 x 4096 result. An entry of a tile depends only on
  one row of each operand and one bias entry, so each tile is the corresponding block of ONE array — rows against
  rows plus the bias row, of the whole operands — and the 64 tiles cover the result: row r lies in block r / 1024,
  column s in block s / 512.
-/
import proofs.«169159_j88175678587513_1_alg».proof.Proof.Gen.KernelIdeal.Frame
import proofs.«169159_j88175678587513_1_alg».proof.Proof.KernelTile
import proofs.«169159_j88175678587513_1_alg».proof.Proof.LinearSpec
import Idealize.ShloMosaic.Lib.Pipeline.Value
import Idealize.ShloMosaic.Lib.ValueIdx

set_option maxRecDepth 16384

noncomputable section

namespace Cert.KernelIdeal.Product

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LinearSpec

variable [Cert.KernelIdeal.Facts]
variable (m : (ℓ : Loc nD τ sig) → Buf (Elt Ideal) ℓ)

theorem offsets_zero : (![0, 0] : Fin 2 → Nat) = fun _ => 0 := funext fun a => by fin_cases a <;> rfl

/-- The three operands as the region finds them, at their literal shapes. -/
abbrev lhs (c : Dev nD) : FVec Ideal S8192x4096 .bf16 := V m c main_v94
abbrev rhs (c : Dev nD) : FVec Ideal S4096x4096 .bf16 := V m c main_v95
abbrev bias (c : Dev nD) : FVec Ideal S1x4096 .f32 := V m c main_v96

/-- The whole product, of the operands as the region finds them. -/
abbrev whole (c : Dev nD) : FVec Ideal S8192x4096 .f32 :=
  rowsByRows (M := 8192) (K := 4096) (N := 4096) (lhs m c) (rhs m c) (bias m c)

/-- The block indices of the four windows at a point: the left operand moves with the result's rows, the right
    operand and the bias with its columns; nothing else moves. Decided over the 64 points. -/
theorem block_indices : ∀ t : Fin cfg0.N,
      win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2) :=
  (by decide +kernel : ∀ t : Fin grid0.N, _)

/-- Every block of the result is some point's. -/
theorem block_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

set_option maxHeartbeats 4000000 in
/-- A tile computed from the three blocks of ANY operands at a point is that point's block of rows against rows of the
    whole operands: an entry of the tile reads one row of each operand's block, which is a row of the operand. -/
theorem tile_of_blocks (X : FVec Ideal S8192x4096 .bf16) (W : FVec Ideal S4096x4096 .bf16) (B : FVec Ideal S1x4096 .f32)
    (t : Fin cfg0.N) (j : S1024x512.Idx) :
    k0_pay1 (F := Ideal) (fun y => X (((cfg0.win 0).blk t).view.emb y)) (fun y => W (((cfg0.win 1).blk t).view.emb y))
        (fun y => B (((cfg0.win 2).blk t).view.emb y)) j
      = rowsByRows (M := 8192) (K := 4096) (N := 4096) X W B (((cfg0.win 3).blk t).view.emb j) := by
  obtain ⟨e0, e1, e2, e3, e4, e5⟩ := block_indices t
  have hj0 : (j 0).val < 1024 := (j 0).isLt
  have hj1 : (j 1).val < 512 := (j 1).isLt
  obtain ⟨i, hi⟩ : ∃ i : S8192x4096.Idx, i = ((cfg0.win 3).blk t).view.emb j := ⟨_, rfl⟩
  have c0 : (i 0).val = win0_3.index t (0 : Fin 2) * 1024 + 1 * (j 0).val := by subst hi; rfl
  have c1 : (i 1).val = win0_3.index t (1 : Fin 2) * 512 + 1 * (j 1).val := by subst hi; rfl
  have h0 : ∀ k : Fin 4096, ((cfg0.win 0).blk t).view.emb (ix2 (j 0) k) = ix2 (i 0) k := fun k => by
    funext a; apply Fin.ext
    match a with
    | ⟨0, _⟩ => show win0_0.index t (0 : Fin 2) * 1024 + 1 * (j 0).val = (i 0).val; omega
    | ⟨1, _⟩ => show win0_0.index t (1 : Fin 2) * 4096 + 1 * k.val = k.val; omega
  have h1 : ∀ k : Fin 4096, ((cfg0.win 1).blk t).view.emb (ix2 (j 1) k) = ix2 (i 1) k := fun k => by
    funext a; apply Fin.ext
    match a with
    | ⟨0, _⟩ => show win0_1.index t (0 : Fin 2) * 512 + 1 * (j 1).val = (i 1).val; omega
    | ⟨1, _⟩ => show win0_1.index t (1 : Fin 2) * 4096 + 1 * k.val = k.val; omega
  have h2 : ((cfg0.win 2).blk t).view.emb (ix2 (0 : Fin 1) (j 1)) = ix2 (0 : Fin 1) (i 1) := by
    funext a; apply Fin.ext
    match a with
    | ⟨0, _⟩ => show win0_2.index t (0 : Fin 2) * 1 + 1 * 0 = 0; omega
    | ⟨1, _⟩ => show win0_2.index t (1 : Fin 2) * 512 + 1 * (j 1).val = (i 1).val; omega
  rw [← hi, Cert.KernelIdeal.Tile.tile_apply_idx, rowsByRows_idx]
  simp only [h0, h1, h2]
  rfl

/-- The same with the write-back's reading of the tile and the blocks as reads of ANY three arrays of the operands'
    types: the statement a point's proof data has, with nothing said of where the arrays come from. -/
theorem tile_is_block_of (c : Dev nD) (X : Buf (Elt Ideal) ((c : Thread nD τ).loc main_v94))
    (W : Buf (Elt Ideal) ((c : Thread nD τ).loc main_v95)) (B : Buf (Elt Ideal) ((c : Thread nD τ).loc main_v96))
    (t : Fin cfg0.N) :
    (cfg0.win 3).cut (grid0.coords t)
        (k0_pay1 (((cfg0.win 0).blk t).view.read (Elt Ideal) X)
          (((cfg0.win 1).blk t).view.read (Elt Ideal) W)
          (((cfg0.win 2).blk t).view.read (Elt Ideal) B))
      = ((cfg0.win 3).blk t).view.read (Elt Ideal)
          (rowsByRows (M := 8192) (K := 4096) (N := 4096) (φ₁ := .bf16) (φ₂ := .bf16) X W B) := by
  funext j
  exact tile_of_blocks X W B t j

set_option maxHeartbeats 4000000 in
/-- What a point writes back is its block of the whole product. -/
theorem tile_is_block (c : Dev nD) (t : Fin cfg0.N) :
    (dats m 0 c).flushed 3 t = ((cfg0.win 3).blk t).view.read (Elt Ideal) (whole m c) := by
  show (cfg0.win 3).cut (grid0.coords t) ((dats m 0 c).after 3 t) = _
  rw [after0_3]
  unfold out0_3
  rw [View.canon_unit_zero offsets_zero]
  simp only [View.ld_unit_zero (S := S1024x4096) offsets_zero, View.ld_unit_zero (S := S512x4096) offsets_zero,
    View.ld_unit_zero (S := S1x512) offsets_zero]
  show (cfg0.win 3).cut (grid0.coords t)
        (k0_pay1 (((cfg0.win 0).blk t).view.read (Elt Ideal) (V m c main_v94))
          (((cfg0.win 1).blk t).view.read (Elt Ideal) (V m c main_v95))
          (((cfg0.win 2).blk t).view.read (Elt Ideal) (V m c main_v96)))
      = ((cfg0.win 3).blk t).view.read (Elt Ideal)
          (rowsByRows (M := 8192) (K := 4096) (N := 4096) (φ₁ := .bf16) (φ₂ := .bf16)
            (V m c main_v94) (V m c main_v95) (V m c main_v96))
  exact tile_is_block_of c (V m c main_v94) (V m c main_v95) (V m c main_v96) t

/-- An index of the result is in a point's block iff each coordinate is in the block's range. -/
theorem mem_block (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v97).slice (win0_3.rect t)).set ↔ _
  rw [View.set_slice_whole, Rect.mem_set_unit]
  exact Iff.rfl

/-- The tiles cover the result. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The result array after the region is the whole product. -/
theorem result_array (c : Dev nD) : (dats m 0 c).arrAt 3 cfg0.N = whole m c :=
  (dats m 0 c).arrAt_eq_of_cover 3 _ (fun t _ => tile_is_block m c t) (covered)

end Cert.KernelIdeal.Product

end
-- ==== Proof.KernelRun.lean ====
/-
  The kernel program's run, with its four results named.

  After the region one regrouping remains: the 8192 x 4096 product is viewed as 4 x 2048 x 4096 (row 2048 b + s
  becomes (b, s)). The other three results were computed before the region and nothing after it writes them, so
  they end as the region found them. The arguments end unchanged.
-/
import proofs.«169159_j88175678587513_1_alg».proof.Proof.Gen.KernelIdeal.Frame
import proofs.«169159_j88175678587513_1_alg».proof.Proof.KernelProduct
import Idealize.ShloMosaic.Lib.StableHlo.Run

set_option maxRecDepth 16384

noncomputable section

namespace Cert.KernelIdeal.Results

open Idealize.ShloMosaic Idealize.ShloMosaic.TcCoe Idealize.SL.Sem Idealize.ShloMosaic.StableHlo
open Cert.KernelIdeal Cert.KernelIdeal.Gen

variable [Cert.KernelIdeal.Facts]
variable (m : (ℓ : Loc nD τ sig) → Buf (Elt Ideal) ℓ) (ρ : Dev nD → PrngReg)

/-- The first result: the whole product regrouped to 4 x 2048 x 4096. -/
def regrouped (c : Dev nD) : FVec Ideal S4x2048x4096 .f32 :=
  shapeCast S4x2048x4096 (Cert.KernelIdeal.Product.whole m c) shapeCasts_S8192x4096_S4x2048x4096

/-- A buffer that is neither the regrouped result nor one of the region's arrays ends as the region found it. -/
theorem tail_keeps (c : Dev nD) (b : Ref sig .tc) (hb : b ≠ main_v98) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b hw]

/-- The regrouping after the region reads the region's result array, which is the whole product. -/
theorem tail_result (c : Dev nD) :
    Pipeline.afterTail₀ cfgs (dats m) 0 (V0 m) [hostOps1] c main_v98 = regrouped m c := by
  unfold Pipeline.afterTail₀ regrouped
  show StableHlo.after hostOps1 _ (Proc.devRef .tc main_v98) = _
  after_results
  exact congrArg (fun y => shapeCast S4x2048x4096 y shapeCasts_S8192x4096_S4x2048x4096)
    ((Pipeline.withArrays_arr spec0 launch0.win.arr_inj c _ _ 3).trans (Cert.KernelIdeal.Product.result_array m c))

/-- Every weakly fair execution terminates with the four results at these values and the arguments unchanged. -/
theorem run : θ_run defs (onTc (τ := τ) (main (F := Ideal))) ⟨m, fun _ => 0, ρ⟩ (fun r => ∀ c : Dev nD,
      r.2.mem ((c.tc : Thread nD τ).loc main_v98) = regrouped m c
      ∧ r.2.mem ((c.tc : Thread nD τ).loc main_v44) = V m c main_v44
      ∧ r.2.mem ((c.tc : Thread nD τ).loc main_v92) = V m c main_v92
      ∧ r.2.mem ((c.tc : Thread nD τ).loc main_v43) = V m c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v98 (Pipeline.mem_restRefs_of main_v98 (by decide) (by decide))).trans (tail_result m c),
     ((h c).2 main_v44 (Pipeline.mem_restRefs_of main_v44 (by decide) (by decide))).trans (tail_keeps m c main_v44 (by decide) (by decide)),
     ((h c).2 main_v92 (Pipeline.mem_restRefs_of main_v92 (by decide) (by decide))).trans (tail_keeps m c main_v92 (by decide) (by decide)),
     ((h c).2 main_v43 (Pipeline.mem_restRefs_of main_v43 (by decide) (by decide))).trans (tail_keeps m c main_v43 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Results

end
-- ==== Proof.Bridge.lean ====
/-
  The kernel's final array and the reference's, entry by entry.

  The kernel multiplies the 8192 x 4096 regrouping of the quantized 4 x 2048 x 4096 activations by the rows of the
  quantized 4096 x 4096 weights, adds the bias row, and regroups the 8192 x 4096 result to 4 x 2048 x 4096. The
  reference contracts the last axis of the 4 x 2048 x 4096 activations with the last axis of the weights and adds the
  bias broadcast along the first two axes. A regrouping keeps every element's row-major position, and
  (b * 2048 + s) * 4096 + k is the position of (b, s, k) in the one shape and of (b * 2048 + s, k) in the other; so at
  the extended reals, where a format conversion is the identity, entry (b, s, o) of either array is
  the sum over k of activation (b, s, k) times weight (o, k), plus bias o.
-/
import proofs.«169159_j88175678587513_1_alg».proof.KernelIdeal
import proofs.«169159_j88175678587513_1_alg».proof.Proof.Gen.ReferenceIdeal.Read
import proofs.«169159_j88175678587513_1_alg».proof.Proof.LinearSpec
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Idealize.SL.Sem
open Cert.ReferenceIdeal.Read (val_main_v44 val_main_v95 val_main_v97 val_main_v98 val_main_v99 val_main_v100)

/-- THE LEFT SIDE AT AN ENTRY. The rows-against-rows layer over the 8192 x 4096 regrouping of a 4 x 2048 x 4096 array
    `A`, regrouped back: entry (b, s, o) is row `b * 2048 + s` of the regrouped array against row `o` of `W`, and that
    row's entry `k` is `A (b, s, k)` (both regroupings keep the row-major position); the bias row's entry `o` is
    `B o`. The conversions to the narrower format are the identity on extended reals. -/
theorem layer_apply [Cert.KernelIdeal.Facts₀]
    (A : FVec Ideal Cert.KernelIdeal.S4x2048x4096 .f32) (W : FVec Ideal Cert.KernelIdeal.S4096x4096 .f32)
    (B : FVec Ideal Cert.KernelIdeal.S4096 .f32) (b : Fin 4) (s : Fin 2048) (o : Fin 4096) :
    shapeCast Cert.KernelIdeal.S4x2048x4096
      (Cert.LinearSpec.rowsByRows
        (truncf .bf16 (shapeCast Cert.KernelIdeal.S8192x4096 A
          Cert.KernelIdeal.Facts₀.shapeCasts_S4x2048x4096_S8192x4096) Cert.KernelIdeal.Facts₀.bitsLt_bf16_f32)
        (truncf .bf16 W Cert.KernelIdeal.Facts₀.bitsLt_bf16_f32)
        (shapeCast Cert.KernelIdeal.S1x4096 B Cert.KernelIdeal.Facts₀.shapeCasts_S4096_S1x4096))
      Cert.KernelIdeal.Facts₀.shapeCasts_S8192x4096_S4x2048x4096 (ix3 b s o)
    = (∑ k : Fin 4096, A (ix3 b s k) * W (ix2 o k)) + B (ix1 o) := by
  have hp : b.val * 2048 + s.val < 8192 := by have := b.isLt; have := s.isLt; omega
  refine (shapeCast_apply _ Cert.KernelIdeal.Facts₀.shapeCasts_S8192x4096_S4x2048x4096 (ix3 b s o)
    (ix2 (⟨b.val * 2048 + s.val, hp⟩ : Fin 8192) o) ?_).trans ?_
  · rewrite [Shape.rowMajor_val_two, Shape.rowMajor_val_three]
    show (b.val * 2048 + s.val) * 4096 + o.val = (b.val * 2048 + s.val) * 4096 + o.val
    rfl
  rw [Cert.LinearSpec.rowsByRows_apply]
  have eA : ∀ k : Fin 4096,
      (truncf .bf16 (shapeCast Cert.KernelIdeal.S8192x4096 A
        Cert.KernelIdeal.Facts₀.shapeCasts_S4x2048x4096_S8192x4096) Cert.KernelIdeal.Facts₀.bitsLt_bf16_f32 :
          FVec Ideal Cert.KernelIdeal.S8192x4096 .bf16) (ix2 (⟨b.val * 2048 + s.val, hp⟩ : Fin 8192) k)
        = A (ix3 b s k) := fun k => by
    rw [truncf_apply]
    exact shapeCast_apply A Cert.KernelIdeal.Facts₀.shapeCasts_S4x2048x4096_S8192x4096
      (ix2 (⟨b.val * 2048 + s.val, hp⟩ : Fin 8192) k) (ix3 b s k) (by
        rewrite [Shape.rowMajor_val_two, Shape.rowMajor_val_three]
        show (b.val * 2048 + s.val) * 4096 + k.val = (b.val * 2048 + s.val) * 4096 + k.val
        rfl)
  have eB : shapeCast Cert.KernelIdeal.S1x4096 B Cert.KernelIdeal.Facts₀.shapeCasts_S4096_S1x4096 (ix2 (0 : Fin 1) o)
      = B (ix1 o) :=
    shapeCast_apply B Cert.KernelIdeal.Facts₀.shapeCasts_S4096_S1x4096 (ix2 (0 : Fin 1) o) (ix1 o) (by
      rewrite [Shape.rowMajor_val_two, Shape.rowMajor_val_one]
      show o.val = 0 * 4096 + o.val
      omega)
  rw [eB]
  refine congrArg (· + B (ix1 o)) (Finset.sum_congr rfl fun k _ => ?_)
  rw [eA k, truncf_apply]

/-- THE RIGHT SIDE AT AN ENTRY. The contraction of the last axis of a 4 x 2048 x 4096 array with the last axis of a
    4096 x 4096 array, plus a length-4096 row broadcast along the first two axes: entry (b, s, o) is the sum over `k` of
    the left array at (b, s, k) times the right at (o, k), plus the row's entry `o`. -/
theorem reference_apply
    (x0 : (⟨Cert.ReferenceIdeal.S4x2048x4096, .f32⟩ : BufTy).Contents (Elt Ideal))
    (x1 : (⟨Cert.ReferenceIdeal.S4096x128, .f32⟩ : BufTy).Contents (Elt Ideal))
    (x2 : (⟨Cert.ReferenceIdeal.S4096x4096, .f32⟩ : BufTy).Contents (Elt Ideal))
    (x3 : (⟨Cert.ReferenceIdeal.S4096, .f32⟩ : BufTy).Contents (Elt Ideal))
    (x4 : (⟨Cert.ReferenceIdeal.S4096x128, .f32⟩ : BufTy).Contents (Elt Ideal))
    (b : Fin 4) (s : Fin 2048) (o : Fin 4096) :
    val_main_v100 (F := Ideal) x0 x1 x2 x3 x4 (ix3 b s o)
      = (∑ k : Fin 4096, val_main_v44 (F := Ideal) x0 (ix3 b s k) * val_main_v95 (F := Ideal) x1 x2 x4 (ix2 o k))
          + x3 (ix1 o) := by
  have el : ∀ k : Fin 4096, Cert.ReferenceIdeal.Read.lidx_main_v97 (ix3 b s o) k = ix3 b s k := fun k =>
    funext fun a => Fin.ext (by match a with | ⟨0, _⟩ => rfl | ⟨1, _⟩ => rfl | ⟨2, _⟩ => rfl)
  have er : ∀ k : Fin 4096, Cert.ReferenceIdeal.Read.ridx_main_v97 (ix3 b s o) k = ix2 o k := fun k =>
    funext fun a => Fin.ext (by match a with | ⟨0, _⟩ => rfl | ⟨1, _⟩ => rfl)
  have eb : Cert.ReferenceIdeal.Read.idx_main_v98 (Cert.ReferenceIdeal.Read.idx_main_v99 (ix3 b s o)) = ix1 o :=
    funext fun a => Fin.ext (by match a with | ⟨0, _⟩ => rfl)
  rw [Cert.ReferenceIdeal.Read.val_main_v100_apply, Cert.ReferenceIdeal.Read.val_main_v97_apply,
    Cert.ReferenceIdeal.Read.val_main_v99_apply, Cert.ReferenceIdeal.Read.val_main_v98_apply, Ideal.addf_def, eb]
  refine congrArg (· + x3 (ix1 o)) (Finset.sum_congr rfl fun k _ => ?_)
  rw [el k, er k]

/-- THE TWO FINAL ARRAYS AGREE. Entry by entry both are the same sum: the layer over the regrouped quantized activations,
    regrouped back, is the reference's contraction plus its broadcast bias. -/
theorem bridge [Cert.KernelIdeal.Facts] [Cert.ReferenceIdeal.Facts]
    (x0 : (⟨Cert.ReferenceIdeal.S4x2048x4096, .f32⟩ : BufTy).Contents (Elt Ideal))
    (x1 : (⟨Cert.ReferenceIdeal.S4096x128, .f32⟩ : BufTy).Contents (Elt Ideal))
    (x2 : (⟨Cert.ReferenceIdeal.S4096x4096, .f32⟩ : BufTy).Contents (Elt Ideal))
    (x3 : (⟨Cert.ReferenceIdeal.S4096, .f32⟩ : BufTy).Contents (Elt Ideal))
    (x4 : (⟨Cert.ReferenceIdeal.S4096x128, .f32⟩ : BufTy).Contents (Elt Ideal)) :
    shapeCast Cert.KernelIdeal.S4x2048x4096
      (Cert.LinearSpec.rowsByRows
        (truncf .bf16 (shapeCast Cert.KernelIdeal.S8192x4096 (val_main_v44 (F := Ideal) x0)
          Cert.KernelIdeal.Facts₀.shapeCasts_S4x2048x4096_S8192x4096) Cert.KernelIdeal.Facts₀.bitsLt_bf16_f32)
        (truncf .bf16 (val_main_v95 (F := Ideal) x1 x2 x4) Cert.KernelIdeal.Facts₀.bitsLt_bf16_f32)
        (shapeCast Cert.KernelIdeal.S1x4096 x3 Cert.KernelIdeal.Facts₀.shapeCasts_S4096_S1x4096))
      Cert.KernelIdeal.Facts₀.shapeCasts_S8192x4096_S4x2048x4096
    = val_main_v100 (F := Ideal) x0 x1 x2 x3 x4 := by
  funext i
  obtain ⟨b, s, o, rfl⟩ : ∃ (b : Fin 4) (s : Fin 2048) (o : Fin 4096), i = ix3 b s o := ⟨i 0, i 1, i 2, eq_ix3 i⟩
  rw [reference_apply]
  exact layer_apply (val_main_v44 (F := Ideal) x0) (val_main_v95 (F := Ideal) x1 x2 x4) x3 b s o

end Cert.Bridge

end
-- ==== Proof.lean ====
/-
  A groupwise 4-bit quantization of activations and weights followed by a dense layer, against its reference.

  Both programs quantize the activations x (4 x 2048 x 4096) and the weights (4096 x 4096) in groups of 32 along the
  last axis: a group's scale s is a power of two read off the group's largest magnitude (for the weights times
  1 + eps, eps the sum of two perturbation arrays), each entry a is divided by s, the quotient y is rounded to a value
  r on a 4-bit grid, and r is multiplied by s again. They return the layer's output and three by-products: the sum
  of the two perturbation arrays and the two arrays of group exponents. The programs differ in two places only.

  1. The reference writes the rounding in its straight-through form, y + (r - y). For a REAL entry a this changes
     nothing after the multiplication by s, whatever s and r are: if s = 0 both products are 0, and otherwise
     y = a / s is real, and y + (r - y) = r for a real y and every extended real r. This is where the
     precondition is used: it makes the entries of x and of the weights real. The scale and the rounding function
     are never looked into.
  2. The reference contracts the 4 x 2048 x 4096 quantized activations with the quantized weights directly and adds
     the bias; the kernel regroups the activations to 8192 rows, computes the product tile by tile (64 tiles of
     1024 x 512, each row of a tile against a row of the weights, plus the bias entry), and regroups the result. Entry
     (b, s, o) is on both sides the sum over k of xq(b, s, k) * wq(o, k), plus bias(o): a finite sum of extended
     reals, in any order.

  The by-products are computed by the same operations in the same order in both programs. The three frames are
  the generated ones; the idealization rewrote nothing, so its conjunct is trivial.
-/
import proofs.«169159_j88175678587513_1_alg».proof.Defs
import proofs.«169159_j88175678587513_1_alg».proof.Proof.Gen.Kernel
import proofs.«169159_j88175678587513_1_alg».proof.Proof.Gen.Kernel.Skeleton
import proofs.«169159_j88175678587513_1_alg».proof.Proof.Gen.Kernel.Launch
import proofs.«169159_j88175678587513_1_alg».proof.Proof.Gen.Kernel.Points
import proofs.«169159_j88175678587513_1_alg».proof.Proof.Gen.Kernel.Frame
import proofs.«169159_j88175678587513_1_alg».proof.Proof.Gen.KernelIdeal
import proofs.«169159_j88175678587513_1_alg».proof.Proof.Gen.KernelIdeal.Skeleton
import proofs.«169159_j88175678587513_1_alg».proof.Proof.Gen.KernelIdeal.Launch
import proofs.«169159_j88175678587513_1_alg».proof.Proof.Gen.KernelIdeal.Points
import proofs.«169159_j88175678587513_1_alg».proof.Proof.Gen.KernelIdeal.Frame
import proofs.«169159_j88175678587513_1_alg».proof.Proof.Gen.ReferenceIdeal
import proofs.«169159_j88175678587513_1_alg».proof.Proof.Gen.Pre_finite_inputs
import proofs.«169159_j88175678587513_1_alg».proof.Proof.Gen.ReferenceIdeal.Run
import proofs.«169159_j88175678587513_1_alg».proof.Proof.Gen.ReferenceIdeal.Read
import proofs.«169159_j88175678587513_1_alg».proof.Proof.FiniteInputs
import proofs.«169159_j88175678587513_1_alg».proof.Proof.RefQuant
import proofs.«169159_j88175678587513_1_alg».proof.Proof.KernelPrefix
import proofs.«169159_j88175678587513_1_alg».proof.Proof.KernelRun
import proofs.«169159_j88175678587513_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

section Claims

variable [Cert.Kernel.Facts] [Cert.KernelIdeal.Facts] [Cert.ReferenceIdeal.Facts] [Cert.Pre_finite_inputs.Facts]

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the results dropped. -/
theorem frame_reference_ideal : Cert.frame_ReferenceIdeal := fun m ρ _ =>
  (θ_run Cert.ReferenceIdeal.defs _ _).mono (fun _ h c => (h c).2.2.2.2) (Cert.ReferenceIdeal.Value.run (F := Ideal) m ρ)

/-- The regrouped product depends on its three operands only. -/
theorem regrouped_congr {X X' : FVec Ideal Cert.KernelIdeal.S8192x4096 .bf16} {W W' : FVec Ideal Cert.KernelIdeal.S4096x4096 .bf16}
    {B B' : FVec Ideal Cert.KernelIdeal.S1x4096 .f32} (hX : X = X') (hW : W = W') (hB : B = B') :
    shapeCast Cert.KernelIdeal.S4x2048x4096
        (Cert.LinearSpec.rowsByRows (M := 8192) (K := 4096) (N := 4096) X W B)
        Cert.KernelIdeal.Gen.shapeCasts_S8192x4096_S4x2048x4096
      = shapeCast Cert.KernelIdeal.S4x2048x4096
        (Cert.LinearSpec.rowsByRows (M := 8192) (K := 4096) (N := 4096) X' W' B')
        Cert.KernelIdeal.Gen.shapeCasts_S8192x4096_S4x2048x4096 := by
  subst hX hW hB; rfl

/-- The kernel's regrouped product is the reference's layer output, for arguments with real activations and weights:
    the operands the region finds are the reference's quantized arrays (the straight-through law), and the two
    contractions are one sum entry by entry. -/
theorem output_eq (m : (ℓ : Loc Cert.KernelIdeal.nD Cert.KernelIdeal.τ Cert.KernelIdeal.sig) → Buf (Elt Ideal) ℓ)
    (c : Dev Cert.KernelIdeal.nD)
    (h0 : ∀ i, ∃ a : ℝ, (m ((c.tc : Thread Cert.KernelIdeal.nD Cert.KernelIdeal.τ).loc Cert.KernelIdeal.main_arg0)) i = (a : EReal))
    (h2 : ∀ i, ∃ a : ℝ, (m ((c.tc : Thread Cert.KernelIdeal.nD Cert.KernelIdeal.τ).loc Cert.KernelIdeal.main_arg2)) i = (a : EReal)) :
    Cert.KernelIdeal.Results.regrouped m c
      = Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  refine (regrouped_congr (Cert.KernelIdeal.Prefix.lhs_array (F := Ideal) m c) (Cert.KernelIdeal.Prefix.rhs_array (F := Ideal) m c)
    (Cert.KernelIdeal.Prefix.bias_array (F := Ideal) m c)).trans ?_
  rw [← Cert.ReferenceIdeal.Quant.act_quant _ h0, ← Cert.ReferenceIdeal.Quant.weight_quant _ _ _ h2]
  exact Cert.Bridge.bridge _ _ _ _ _

theorem algebraic : Cert.algebraic_KernelIdeal_ReferenceIdeal := by
  intro m ρ m' ρ' hpre hagree
  have hfin := fun c => Cert.FiniteInputs.real_of_pre _ _ _ _ _ (hpre c)
  refine ⟨fun c => Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v46 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4)),
    fun c => Cert.ReferenceIdeal.Read.val_main_v96 (F := Ideal) (m ((c.tc : Thread Cert.KernelIdeal.nD Cert.KernelIdeal.τ).loc Cert.KernelIdeal.main_arg2)),
    fun c => Cert.ReferenceIdeal.Read.val_main_v45 (F := Ideal) (m ((c.tc : Thread Cert.KernelIdeal.nD Cert.KernelIdeal.τ).loc Cert.KernelIdeal.main_arg0)), ?_, ?_⟩
  · refine (θ_run Cert.KernelIdeal.defs _ _).mono (fun r h c => ?_) (Cert.KernelIdeal.Results.run m ρ)
    obtain ⟨r0, r1, r2, r3, rargs⟩ := h c
    exact ⟨r0.trans (output_eq m c (hfin c).1 (hfin c).2), r1.trans (Cert.KernelIdeal.Prefix.eps_result m c),
      r2.trans (Cert.KernelIdeal.Prefix.weight_exps_result m c), r3.trans (Cert.KernelIdeal.Prefix.act_exps_result m c), rargs⟩
  · refine (θ_run Cert.ReferenceIdeal.defs _ _).mono (fun r h c => ?_) (Cert.ReferenceIdeal.Value.run (F := Ideal) m' ρ')
    obtain ⟨r0, r1, r2, r3, rargs⟩ := h c
    obtain ⟨g0, g1, g2, g3, g4⟩ := hagree c
    refine ⟨?_, ?_, ?_, ?_, rargs⟩
    · rw [r0, Cert.ReferenceIdeal.Read.val_main_v100_eq, g0, g1, g2, g3, g4]
    · rw [r1, g4, g1]; rfl
    · rw [r2, g2]; exact Cert.ReferenceIdeal.Read.val_main_v96_eq _
    · rw [r3, g0]; exact Cert.ReferenceIdeal.Read.val_main_v45_eq _

end Claims

theorem claim : Cert.Claim := ⟨Cert.Kernel.Gen.facts, Cert.KernelIdeal.Gen.facts, Cert.ReferenceIdeal.Gen.facts, Cert.Pre_finite_inputs.Gen.facts,
  @frame_kernel Cert.Kernel.Gen.facts Cert.KernelIdeal.Gen.facts Cert.ReferenceIdeal.Gen.facts Cert.Pre_finite_inputs.Gen.facts,
  @frame_kernel_ideal Cert.Kernel.Gen.facts Cert.KernelIdeal.Gen.facts Cert.ReferenceIdeal.Gen.facts Cert.Pre_finite_inputs.Gen.facts,
  @frame_reference_ideal Cert.Kernel.Gen.facts Cert.KernelIdeal.Gen.facts Cert.ReferenceIdeal.Gen.facts Cert.Pre_finite_inputs.Gen.facts,
  trivial,
  @algebraic Cert.Kernel.Gen.facts Cert.KernelIdeal.Gen.facts Cert.ReferenceIdeal.Gen.facts Cert.Pre_finite_inputs.Gen.facts⟩

end Cert.Proof

end
